-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x768 : Shape := ⟨3, ![8, 128, 768]⟩
abbrev S256x768 : Shape := ⟨2, ![256, 768]⟩
abbrev S256 : Shape := ⟨1, ![256]⟩
abbrev S3x768 : Shape := ⟨2, ![3, 768]⟩
abbrev S3 : Shape := ⟨1, ![3]⟩
abbrev S50000x256 : Shape := ⟨2, ![50000, 256]⟩
abbrev S_ : Shape := ⟨0, ![]⟩

class Facts : Prop where
  bcast_S_S8x128x768 : S_.BroadcastsInDim S8x128x768 (![] : Fin 0 → Fin S8x128x768.rank)
  reducesTo_S8x128x768_S_d0_1_2 : S8x128x768.ReducesTo [0, 1, 2] S_
  h_S_ : 0 < S_.numel
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S3x768 : S_.BroadcastsInDim S3x768 (![] : Fin 0 → Fin S3x768.rank)
  reducesTo_S3x768_S_d0_1 : S3x768.ReducesTo [0, 1] S_
  bcast_S_S3 : S_.BroadcastsInDim S3 (![] : Fin 0 → Fin S3.rank)
  reducesTo_S3_S_d0 : S3.ReducesTo [0] S_
  bcast_S_S50000x256 : S_.BroadcastsInDim S50000x256 (![] : Fin 0 → Fin S50000x256.rank)
  reducesTo_S50000x256_S_d0_1 : S50000x256.ReducesTo [0, 1] S_

variable [Facts]

def fn_part1 {F : FTy → Type} [FloatOps F] (main_arg4 : FVec F S3 .f32) (main_arg5 : FVec F S50000x256 .f32) (main_v13 : IVec S_ 1) (main_v16 : IVec S3x768 1) : IVec S_ 1 :=
  let main_c_5 : IVec S_ 1 := constantI S_ 1 1#1
  let main_v17 : IVec S_ 1 := (fun x v => Host.reduce IntOp.andi x v reducesTo_S3x768_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S50000x256 .f32 := Host.absf main_arg5
  let main_cst_8 : FVec F S_ .f32 := constant S_ .f32 0x7F800000#32
  let main_v25 : FVec F S50000x256 .f32 := broadcastInDim S50000x256 ![] bcast_S_S50000x256 main_cst_8
  let main_v26 : IVec S50000x256 1 := cmpf .olt main_v24 main_v25
  let main_c_9 : IVec S_ 1 := constantI S_ 1 1#1
  let main_v27 : IVec S_ 1 := (fun x v => Host.reduce IntOp.andi x v reducesTo_S50000x256_S_d0_1 h_S_) main_v26 main_c_9
  let main_v28 : IVec S_ 1 := andi main_v23 main_v27
  main_v28

def fn {F : FTy → Type} [FloatOps F] (main_arg0 : FVec F S8x128x768 .f32) (main_arg1 : FVec F S256x768 .f32) (main_arg2 : FVec F S256 .f32) (main_arg3 : FVec F S3x768 .f32) (main_arg4 : FVec F S3 .f32) (main_arg5 : FVec F S50000x256 .f32) : IVec S_ 1 :=
  let main_v0 : FVec F S8x128x768 .f32 := Host.absf main_arg0
  let main_cst : FVec F S_ .f32 := constant S_ .f32 0x7F800000#32
  let main_v1 : FVec F S8x128x768 .f32 := broadcastInDim S8x128x768 ![] bcast_S_S8x128x768 main_cst
  let main_v2 : IVec S8x128x768 1 := cmpf .olt main_v0 main_v1
  let main_c : IVec S_ 1 := constantI S_ 1 1#1
  let main_v3 : IVec S_ 1 := (fun x v => Host.reduce IntOp.andi x v reducesTo_S8x128x768_S_d0_1_2 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x768 .f32 := Host.absf main_arg3
  let main_cst_4 : FVec F S_ .f32 := constant S_ .f32 0x7F800000#32
  let main_v15 : FVec F S3x768 .f32 := broadcastInDim S3x768 ![] bcast_S_S3x768 main_cst_4
  let main_v16 : IVec S3x768 1 := cmpf .olt main_v14 main_v15
  fn_part1 (F := F) main_arg4 main_arg5 main_v13 main_v16
-- ==== Kernel.lean ====
abbrev S8x128x768 : Shape := ⟨3, ![8, 128, 768]⟩
abbrev S256x768 : Shape := ⟨2, ![256, 768]⟩
abbrev S256 : Shape := ⟨1, ![256]⟩
abbrev S3x768 : Shape := ⟨2, ![3, 768]⟩
abbrev S3 : Shape := ⟨1, ![3]⟩
abbrev S50000x256 : Shape := ⟨2, ![50000, 256]⟩
abbrev S8x128x256 : Shape := ⟨3, ![8, 128, 256]⟩
abbrev S8x128x3 : Shape := ⟨3, ![8, 128, 3]⟩
abbrev S1x128x768 : Shape := ⟨3, ![1, 128, 768]⟩
abbrev S1x128x256 : Shape := ⟨3, ![1, 128, 256]⟩
abbrev S1x128x3 : Shape := ⟨3, ![1, 128, 3]⟩
abbrev S128x768 : Shape := ⟨2, ![128, 768]⟩
abbrev S768x256 : Shape := ⟨2, ![768, 256]⟩
abbrev S128x256 : Shape := ⟨2, ![128, 256]⟩
abbrev S1x256 : Shape := ⟨2, ![1, 256]⟩
abbrev S128 : Shape := ⟨1, ![128]⟩
abbrev S128x1 : Shape := ⟨2, ![128, 1]⟩
abbrev S768x3 : Shape := ⟨2, ![768, 3]⟩
abbrev S128x3 : Shape := ⟨2, ![128, 3]⟩
abbrev S1x3 : Shape := ⟨2, ![1, 3]⟩
abbrev S1024x256 : Shape := ⟨2, ![1024, 256]⟩
abbrev S_ : Shape := ⟨0, ![]⟩
abbrev S51200x256 : Shape := ⟨2, ![51200, 256]⟩
abbrev S1024x51200 : Shape := ⟨2, ![1024, 51200]⟩
abbrev S1280x256 : Shape := ⟨2, ![1280, 256]⟩
abbrev S1024x1280 : Shape := ⟨2, ![1024, 1280]⟩
abbrev S1280 : Shape := ⟨1, ![1280]⟩
abbrev S1280x1 : Shape := ⟨2, ![1280, 1]⟩
abbrev S256x1280 : Shape := ⟨2, ![256, 1280]⟩
abbrev S1024x50000 : Shape := ⟨2, ![1024, 50000]⟩
abbrev S8x128x50000 : Shape := ⟨3, ![8, 128, 50000]⟩

abbrev nBuf : Space → Nat
  | .hbm => 15
  | .vmem => 15
  | .smem => 0
  | _ => 0

abbrev bufTy : (tb : Table) → Fin (tcTables nBuf tb) → BufTy
  | .hbm, ⟨0, _⟩ => ⟨S8x128x768, .f32⟩
  | .hbm, ⟨1, _⟩ => ⟨S256x768, .f32⟩
  | .hbm, ⟨2, _⟩ => ⟨S256, .f32⟩
  | .hbm, ⟨3, _⟩ => ⟨S3x768, .f32⟩
  | .hbm, ⟨4, _⟩ => ⟨S3, .f32⟩
  | .hbm, ⟨5, _⟩ => ⟨S50000x256, .f32⟩
  | .hbm, ⟨6, _⟩ => ⟨S8x128x256, .bf16⟩
  | .hbm, ⟨7, _⟩ => ⟨S8x128x3, .f32⟩
  | .hbm, ⟨8, _⟩ => ⟨S1024x256, .bf16⟩
  | .hbm, ⟨9, _⟩ => ⟨S_, .i32⟩
  | .hbm, ⟨10, _⟩ => ⟨S_, .f32⟩
  | .hbm, ⟨11, _⟩ => ⟨S51200x256, .f32⟩
  | .hbm, ⟨12, _⟩ => ⟨S1024x51200, .f32⟩
  | .hbm, ⟨13, _⟩ => ⟨S1024x50000, .f32⟩
  | .hbm, ⟨14, _⟩ => ⟨S8x128x50000, .f32⟩
  | .local _ .vmem, ⟨0, _⟩ => ⟨S1x128x768, .f32⟩
  | .local _ .vmem, ⟨1, _⟩ => ⟨S1x128x768, .f32⟩
  | .local _ .vmem, ⟨2, _⟩ => ⟨S256x768, .f32⟩
  | .local _ .vmem, ⟨3, _⟩ => ⟨S256, .f32⟩
  | .local _ .vmem, ⟨4, _⟩ => ⟨S3x768, .f32⟩
  | .local _ .vmem, ⟨5, _⟩ => ⟨S3, .f32⟩
  | .local _ .vmem, ⟨6, _⟩ => ⟨S1x128x256, .bf16⟩
  | .local _ .vmem, ⟨7, _⟩ => ⟨S1x128x256, .bf16⟩
  | .local _ .vmem, ⟨8, _⟩ => ⟨S1x128x3, .f32⟩
  | .local _ .vmem, ⟨9, _⟩ => ⟨S1x128x3, .f32⟩
  | .local _ .vmem, ⟨10, _⟩ => ⟨S1024x256, .bf16⟩
  | .local _ .vmem, ⟨11, _⟩ => ⟨S1280x256, .f32⟩
  | .local _ .vmem, ⟨12, _⟩ => ⟨S1280x256, .f32⟩
  | .local _ .vmem, ⟨13, _⟩ => ⟨S1024x1280, .f32⟩
  | .local _ .vmem, ⟨14, _⟩ => ⟨S1024x1280, .f32⟩
  | _, _ => ⟨S8x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1280x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  transposes_S256x768_p1_0_S768x256 : S256x768.Transposes [1, 0] S768x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  reduces_S128x256_S128 : S128x256.Reduces [1] S128
  shapeCasts_S128_S128x1 : S128.ShapeCasts S128x1
  broadcasts_S128x1_S128x256 : S128x1.Broadcasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  packedbf16_S1x128x256_S1x128x256_0_0_0 : (Rect.unit (s := S1x128x256) ![0, 0, 0] S1x128x256.size inb_S1x128x256_S1x128x256_0_0_0).PackedRows (EltTy.packing .bf16)
  inb_S3x768_S3x768_0_0 : ∀ a, (![0, 0] : Fin 2 → Nat) a + S3x768.size a ≤ S3x768.size a
  h_S3x768 : 0 < S3x768.numel
  transposes_S3x768_p1_0_S768x3 : S3x768.Transposes [1, 0] S768x3
  inb_S3_S3_0 : ∀ a, (![0] : Fin 1 → Nat) a + S3.size a ≤ S3.size a
  h_S3 : 0 < S3.numel
  shapeCasts_S3_S1x3 : S3.ShapeCasts S1x3
  broadcasts_S1x3_S128x3 : S1x3.Broadcasts S128x3
  reduces_S128x3_S3 : S128x3.Reduces [0] S3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  shapeCasts_S128x3_S1x128x3 : S128x3.ShapeCasts S1x128x3
  shapeCasts_S8x128x256_S1024x256 : S8x128x256.ShapeCasts S1024x256
  pads_S50000x256_S51200x256_012000_000 : S50000x256.Pads (![0, 0] : Fin 2 → Nat) ![1200, 0] ![0, 0] S51200x256
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  reduces_S1280x256_S1280 : S1280x256.Reduces [1] S1280
  shapeCasts_S1280_S1280x1 : S1280.ShapeCasts S1280x1
  broadcasts_S1280x1_S1280x256 : S1280x1.Broadcasts S1280x256
  transposes_S1280x256_p1_0_S256x1280 : S1280x256.Transposes [1, 0] S256x1280
  inb_S1024x1280_S1024x1280_0_0 : ∀ a, (![0, 0] : Fin 2 → Nat) a + S1024x1280.size a ≤ S1024x1280.size a
  h_S1024x1280 : 0 < S1024x1280.numel
  slices_S1024x51200_S1024x50000_0_0 : S1024x51200.Slices ![0, 0] S1024x50000
  shapeCasts_S1024x50000_S8x128x50000 : S1024x50000.ShapeCasts S8x128x50000
  dot_S128x768_S768x256_S128x256_1_0_0_1_n_n_wf : DotDims.WF S128x768 S768x256 S128x256 [1] [0] [0] [1] [] []
  dot_S128x768_S768x3_S128x3_1_0_0_1_n_n_wf : DotDims.WF S128x768 S768x3 S128x3 [1] [0] [0] [1] [] []
  dot_S1024x256_S256x1280_S1024x1280_1_0_0_1_n_n_wf : DotDims.WF S1024x256 S256x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S8x128x768.size a
  hwx0_0 : ∀ i : grid0.Coords, EltTy.bits .f32 = 32 ∨ (Rect.block (s := S8x128x768) S1x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x768.size a ≤ S3x768.size a
  hwx0_3 : ∀ i : grid0.Coords, EltTy.bits .f32 = 32 ∨ (Rect.block (s := S3x768) S3x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S8x128x256.size a
  hwx0_5 : ∀ i : grid0.Coords, EltTy.bits .bf16 = 32 ∨ (Rect.block (s := S8x128x256) S1x128x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x3.size a ≤ S8x128x3.size a
  hwx0_6 : ∀ i : grid0.Coords, EltTy.bits .f32 = 32 ∨ (Rect.block (s := S8x128x3) S1x128x3.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S1024x256.size a
  hwx1_0 : ∀ i : grid1.Coords, EltTy.bits .bf16 = 32 ∨ (Rect.block (s := S1024x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x256.size a ≤ S51200x256.size a
  hwx1_1 : ∀ i : grid1.Coords, EltTy.bits .f32 = 32 ∨ (Rect.block (s := S51200x256) S1280x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1280.size a ≤ S1024x51200.size a
  hwx1_2 : ∀ i : grid1.Coords, EltTy.bits .f32 = 32 ∨ (Rect.block (s := S1024x51200) S1024x1280.size (cc1_transform_2 i) (hinb1_2 i)).WholeWords (EltTy.packing .f32)

variable [Facts₀]

def dot_S128x768_S768x256_S128x256_1_0_0_1_n_n : DotDims S128x768 S768x256 S128x256 where
  lhsContracting := [1]
  rhsContracting := [0]
  lhsNonContracting := [0]
  rhsNonContracting := [1]
  lhsBatch := []
  rhsBatch := []
  wf := dot_S128x768_S768x256_S128x256_1_0_0_1_n_n_wf
def dot_S128x768_S768x3_S128x3_1_0_0_1_n_n : DotDims S128x768 S768x3 S128x3 where
  lhsContracting := [1]
  rhsContracting := [0]
  lhsNonContracting := [0]
  rhsNonContracting := [1]
  lhsBatch := []
  rhsBatch := []
  wf := dot_S128x768_S768x3_S128x3_1_0_0_1_n_n_wf
def dot_S1024x256_S256x1280_S1024x1280_1_0_0_1_n_n : DotDims S1024x256 S256x1280 S1024x1280 where
  lhsContracting := [1]
  rhsContracting := [0]
  lhsNonContracting := [0]
  rhsNonContracting := [1]
  lhsBatch := []
  rhsBatch := []
  wf := dot_S1024x256_S256x1280_S1024x1280_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x128x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x128x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S1024x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1280x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1280.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x128x768 : Shape := ⟨3, ![8, 128, 768]⟩
abbrev S256x768 : Shape := ⟨2, ![256, 768]⟩
abbrev S256 : Shape := ⟨1, ![256]⟩
abbrev S3x768 : Shape := ⟨2, ![3, 768]⟩
abbrev S3 : Shape := ⟨1, ![3]⟩
abbrev S50000x256 : Shape := ⟨2, ![50000, 256]⟩
abbrev S8x128x3 : Shape := ⟨3, ![8, 128, 3]⟩
abbrev S1x1x3 : Shape := ⟨3, ![1, 1, 3]⟩
abbrev S_ : Shape := ⟨0, ![]⟩
abbrev S8x3 : Shape := ⟨2, ![8, 3]⟩
abbrev S8x1x3 : Shape := ⟨3, ![8, 1, 3]⟩
abbrev S8x128x256 : Shape := ⟨3, ![8, 128, 256]⟩
abbrev S1x1x256 : Shape := ⟨3, ![1, 1, 256]⟩
abbrev S8x128 : Shape := ⟨2, ![8, 128]⟩
abbrev S8x128x1 : Shape := ⟨3, ![8, 128, 1]⟩
abbrev S50000 : Shape := ⟨1, ![50000]⟩
abbrev S50000x1 : Shape := ⟨2, ![50000, 1]⟩
abbrev S8x128x50000 : Shape := ⟨3, ![8, 128, 50000]⟩

abbrev nBuf : Space → Nat
  | .hbm => 51
  | .vmem => 0
  | .smem => 0
  | _ => 0

abbrev bufTy : (tb : Table) → Fin (tcTables nBuf tb) → BufTy
  | .hbm, ⟨0, _⟩ => ⟨S8x128x768, .f32⟩
  | .hbm, ⟨1, _⟩ => ⟨S256x768, .f32⟩
  | .hbm, ⟨2, _⟩ => ⟨S256, .f32⟩
  | .hbm, ⟨3, _⟩ => ⟨S3x768, .f32⟩
  | .hbm, ⟨4, _⟩ => ⟨S3, .f32⟩
  | .hbm, ⟨5, _⟩ => ⟨S50000x256, .f32⟩
  | .hbm, ⟨6, _⟩ => ⟨S8x128x3, .f32⟩
  | .hbm, ⟨7, _⟩ => ⟨S1x1x3, .f32⟩
  | .hbm, ⟨8, _⟩ => ⟨S8x128x3, .f32⟩
  | .hbm, ⟨9, _⟩ => ⟨S8x128x3, .f32⟩
  | .hbm, ⟨10, _⟩ => ⟨S_, .f32⟩
  | .hbm, ⟨11, _⟩ => ⟨S8x3, .f32⟩
  | .hbm, ⟨12, _⟩ => ⟨S_, .f32⟩
  | .hbm, ⟨13, _⟩ => ⟨S8x3, .f32⟩
  | .hbm, ⟨14, _⟩ => ⟨S8x3, .f32⟩
  | .hbm, ⟨15, _⟩ => ⟨S8x1x3, .f32⟩
  | .hbm, ⟨16, _⟩ => ⟨S8x128x3, .f32⟩
  | .hbm, ⟨17, _⟩ => ⟨S8x128x3, .f32⟩
  | .hbm, ⟨18, _⟩ => ⟨S8x128x3, .f32⟩
  | .hbm, ⟨19, _⟩ => ⟨S_, .f32⟩
  | .hbm, ⟨20, _⟩ => ⟨S8x3, .f32⟩
  | .hbm, ⟨21, _⟩ => ⟨S8x1x3, .f32⟩
  | .hbm, ⟨22, _⟩ => ⟨S8x1x3, .f32⟩
  | .hbm, ⟨23, _⟩ => ⟨S8x128x3, .f32⟩
  | .hbm, ⟨24, _⟩ => ⟨S8x128x3, .f32⟩
  | .hbm, ⟨25, _⟩ => ⟨S8x128x256, .f32⟩
  | .hbm, ⟨26, _⟩ => ⟨S1x1x256, .f32⟩
  | .hbm, ⟨27, _⟩ => ⟨S8x128x256, .f32⟩
  | .hbm, ⟨28, _⟩ => ⟨S8x128x256, .f32⟩
  | .hbm, ⟨29, _⟩ => ⟨S8x128x256, .f32⟩
  | .hbm, ⟨30, _⟩ => ⟨S8x128x256, .f32⟩
  | .hbm, ⟨31, _⟩ => ⟨S_, .f32⟩
  | .hbm, ⟨32, _⟩ => ⟨S8x128, .f32⟩
  | .hbm, ⟨33, _⟩ => ⟨S8x128x1, .f32⟩
  | .hbm, ⟨34, _⟩ => ⟨S8x128x1, .f32⟩
  | .hbm, ⟨35, _⟩ => ⟨S_, .f32⟩
  | .hbm, ⟨36, _⟩ => ⟨S8x128x1, .f32⟩
  | .hbm, ⟨37, _⟩ => ⟨S8x128x1, .f32⟩
  | .hbm, ⟨38, _⟩ => ⟨S8x128x256, .f32⟩
  | .hbm, ⟨39, _⟩ => ⟨S8x128x256, .f32⟩
  | .hbm, ⟨40, _⟩ => ⟨S50000x256, .f32⟩
  | .hbm, ⟨41, _⟩ => ⟨S_, .f32⟩
  | .hbm, ⟨42, _⟩ => ⟨S50000, .f32⟩
  | .hbm, ⟨43, _⟩ => ⟨S50000x1, .f32⟩
  | .hbm, ⟨44, _⟩ => ⟨S50000x1, .f32⟩
  | .hbm, ⟨45, _⟩ => ⟨S_, .f32⟩
  | .hbm, ⟨46, _⟩ => ⟨S50000x1, .f32⟩
  | .hbm, ⟨47, _⟩ => ⟨S50000x1, .f32⟩
  | .hbm, ⟨48, _⟩ => ⟨S50000x256, .f32⟩
  | .hbm, ⟨49, _⟩ => ⟨S50000x256, .f32⟩
  | .hbm, ⟨50, _⟩ => ⟨S8x128x50000, .f32⟩
  | _, _ => ⟨S8x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_call2_v0 : Ref sig .tc := ⟨.hbm, 40, rfl⟩
abbrev main_call2_cst : Ref sig .tc := ⟨.hbm, 41, rfl⟩
abbrev main_call2_v1 : Ref sig .tc := ⟨.hbm, 42, rfl⟩
abbrev main_call2_v2 : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩

abbrev nD : Nat := 1
abbrev τ : Topo := Topo.v7x

variable {F : FTy → Type} [FloatOps F]

class Facts₀ : Prop where
  bcast_S3_S1x1x3_2 : S3.BroadcastsInDim S1x1x3 (![2] : Fin 1 → Fin S1x1x3.rank)
  bcast_S1x1x3_S8x128x3_0_1_2 : S1x1x3.BroadcastsInDim S8x128x3 (![0, 1, 2] : Fin 3 → Fin S8x128x3.rank)
  reducesTo_S8x128x3_S8x3_d1 : S8x128x3.ReducesTo [1] S8x3
  h_S_ : 0 < S_.numel
  bcast_S_S8x3 : S_.BroadcastsInDim S8x3 (![] : Fin 0 → Fin S8x3.rank)
  bcast_S8x3_S8x1x3_0_2 : S8x3.BroadcastsInDim S8x1x3 (![0, 2] : Fin 2 → Fin S8x1x3.rank)
  bcast_S8x1x3_S8x128x3_0_1_2 : S8x1x3.BroadcastsInDim S8x128x3 (![0, 1, 2] : Fin 3 → Fin S8x128x3.rank)
  bcast_S256_S1x1x256_2 : S256.BroadcastsInDim S1x1x256 (![2] : Fin 1 → Fin S1x1x256.rank)
  bcast_S1x1x256_S8x128x256_0_1_2 : S1x1x256.BroadcastsInDim S8x128x256 (![0, 1, 2] : Fin 3 → Fin S8x128x256.rank)
  reducesTo_S8x128x256_S8x128_d2 : S8x128x256.ReducesTo [2] S8x128
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  bcast_S8x128x1_S8x128x256_0_1_2 : S8x128x1.BroadcastsInDim S8x128x256 (![0, 1, 2] : Fin 3 → Fin S8x128x256.rank)
  reducesTo_S50000x256_S50000_d1 : S50000x256.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S8x128x768_S3x768_S8x128x3_2_1_01_0_n_n_wf : DotDims.WF S8x128x768 S3x768 S8x128x3 [2] [1] [0, 1] [0] [] []
  dot_S8x128x768_S256x768_S8x128x256_2_1_01_0_n_n_wf : DotDims.WF S8x128x768 S256x768 S8x128x256 [2] [1] [0, 1] [0] [] []
  dot_S8x128x256_S50000x256_S8x128x50000_2_1_01_0_n_n_wf : DotDims.WF S8x128x256 S50000x256 S8x128x50000 [2] [1] [0, 1] [0] [] []

variable [Facts₀]

def dot_S8x128x768_S3x768_S8x128x3_2_1_01_0_n_n : DotDims S8x128x768 S3x768 S8x128x3 where
  lhsContracting := [2]
  rhsContracting := [1]
  lhsNonContracting := [0, 1]
  rhsNonContracting := [0]
  lhsBatch := []
  rhsBatch := []
  wf := dot_S8x128x768_S3x768_S8x128x3_2_1_01_0_n_n_wf
def dot_S8x128x768_S256x768_S8x128x256_2_1_01_0_n_n : DotDims S8x128x768 S256x768 S8x128x256 where
  lhsContracting := [2]
  rhsContracting := [1]
  lhsNonContracting := [0, 1]
  rhsNonContracting := [0]
  lhsBatch := []
  rhsBatch := []
  wf := dot_S8x128x768_S256x768_S8x128x256_2_1_01_0_n_n_wf
def dot_S8x128x256_S50000x256_S8x128x50000_2_1_01_0_n_n : DotDims S8x128x256 S50000x256 S8x128x50000 where
  lhsContracting := [2]
  rhsContracting := [1]
  lhsNonContracting := [0, 1]
  rhsNonContracting := [0]
  lhsBatch := []
  rhsBatch := []
  wf := dot_S8x128x256_S50000x256_S8x128x50000_2_1_01_0_n_n_wf

class Facts : Prop extends Facts₀ where

variable [Facts]
-- ==== Proof.Spec.lean ====
/-
  The two results of the entity linker as plain functions on the extended reals.

  Mention head: for a batch row with hidden states X (128 positions by 768 features), weights W (3 by 768) and
  bias b, the logit of position s and class c is  ∑ₖ X s k · W c k + b c ; the result is the logarithm of the
  softmax ALONG THE POSITIONS: the logit minus the largest logit of its class (a maximum taken from an initial
  value), minus the logarithm of the sum over positions of the exponentials of those differences.

  Similarity head: the projection of a position is tanh of a linear map (256 outputs), divided by the larger of
  its Euclidean norm and a small constant; an entity row is divided by the larger of its norm and the same
  constant; the similarity of a position and an entity is the inner product of the two normalised vectors.

  Everything is stated over coordinates of literal extents; no program is mentioned.
-/
import Idealize.ShloMosaic.PureOps.Ideal
import Idealize.ShloMosaic.Lib.ValueIdx

noncomputable section

namespace Cert.Spec

open Idealize.ShloMosaic Idealize.ShloMosaic.ValueIdx

/-- The small constant both normalisations compare a norm with (one 32-bit word, the same in both programs). -/
abbrev floorW : EReal := Ideal.ofBits .f32 0x322BCC77#32
/-- The value the maximum over positions starts from (one 32-bit word, the same in both programs). -/
abbrev startW : EReal := Ideal.ofBits .f32 0xFF800000#32

/-! ## One batch row -/

/-- A linear map at one output: the inner product of a position's features with an output's weights, plus its bias. -/
def lin {n : Nat} (X : Fin 128 → Fin 768 → EReal) (W : Fin n → Fin 768 → EReal) (b : Fin n → EReal) (s : Fin 128) (o : Fin n) : EReal :=
  (∑ k : Fin 768, X s k * W o k) + b o

/-- The largest logit of a class over the positions, from the start value. -/
def topLogit (L : Fin 128 → Fin 3 → EReal) (c : Fin 3) : EReal :=
  (Finset.univ : Finset (Fin 128)).fold max startW (fun s => L s c)

/-- A logit minus the largest of its class. -/
def shifted (L : Fin 128 → Fin 3 → EReal) (s : Fin 128) (c : Fin 3) : EReal := L s c - topLogit L c

/-- The logarithm of the softmax along the positions. -/
def logSoftmax (L : Fin 128 → Fin 3 → EReal) (s : Fin 128) (c : Fin 3) : EReal :=
  shifted L s c - Ideal.log (∑ s' : Fin 128, Ideal.exp (shifted L s' c))

/-- A vector of 256 entries divided by the larger of its Euclidean norm and the small constant. -/
def unit (v : Fin 256 → EReal) (d : Fin 256) : EReal :=
  Ideal.div (v d) (max (Ideal.sqrt (∑ d' : Fin 256, v d' * v d')) floorW)

/-- The projection of a position: tanh of the linear map. -/
def proj (X : Fin 128 → Fin 768 → EReal) (W : Fin 256 → Fin 768 → EReal) (b : Fin 256 → EReal) (s : Fin 128) (d : Fin 256) : EReal :=
  Ideal.tanh (lin X W b s d)

/-! ## The whole arrays -/

abbrev Hidden := (⟨3, ![8, 128, 768]⟩ : Shape).Idx → EReal
abbrev ProjW := (⟨2, ![256, 768]⟩ : Shape).Idx → EReal
abbrev ProjB := (⟨1, ![256]⟩ : Shape).Idx → EReal
abbrev MdW := (⟨2, ![3, 768]⟩ : Shape).Idx → EReal
abbrev MdB := (⟨1, ![3]⟩ : Shape).Idx → EReal
abbrev Entities := (⟨2, ![50000, 256]⟩ : Shape).Idx → EReal

/-- Batch row r of the hidden states. -/
def row (x : Hidden) (r : Fin 8) : Fin 128 → Fin 768 → EReal := fun s k => x (ix3 r s k)
def mat {n : Nat} (w : (⟨2, ![n, 768]⟩ : Shape).Idx → EReal) : Fin n → Fin 768 → EReal := fun o k => w (ix2 o k)
def vec {n : Nat} (b : (⟨1, ![n]⟩ : Shape).Idx → EReal) : Fin n → EReal := fun o => b (ix1 o)

/-- The mention head's result at batch row r, position s, class c. -/
def mention (x : Hidden) (w : MdW) (b : MdB) (r : Fin 8) (s : Fin 128) (c : Fin 3) : EReal :=
  logSoftmax (lin (row x r) (mat w) (vec b)) s c

/-- The normalised projection at batch row r, position s, entry d. -/
def projUnit (x : Hidden) (w : ProjW) (b : ProjB) (r : Fin 8) (s : Fin 128) (d : Fin 256) : EReal :=
  unit (proj (row x r) (mat w) (vec b) s) d

/-- The normalised entity row j at entry d. -/
def entUnit (e : Entities) (j : Fin 50000) (d : Fin 256) : EReal := unit (fun d' => e (ix2 j d')) d

/-- The similarity of position (r, s) and entity j. -/
def similarity (x : Hidden) (w : ProjW) (b : ProjB) (e : Entities) (r : Fin 8) (s : Fin 128) (j : Fin 50000) : EReal :=
  ∑ d : Fin 256, projUnit x w b r s d * entUnit e j d

/-- The mention head's result array. -/
def mentionArr (x : Hidden) (w : MdW) (b : MdB) : (⟨3, ![8, 128, 3]⟩ : Shape).Idx → EReal :=
  fun i => mention x w b ⟨(i 0).val, (i 0).isLt⟩ ⟨(i 1).val, (i 1).isLt⟩ ⟨(i 2).val, (i 2).isLt⟩

/-- The similarity array. -/
def similarityArr (x : Hidden) (w : ProjW) (b : ProjB) (e : Entities) : (⟨3, ![8, 128, 50000]⟩ : Shape).Idx → EReal :=
  fun i => similarity x w b e ⟨(i 0).val, (i 0).isLt⟩ ⟨(i 1).val, (i 1).isLt⟩ ⟨(i 2).val, (i 2).isLt⟩

theorem mentionArr_ix (x : Hidden) (w : MdW) (b : MdB) (r : Fin 8) (s : Fin 128) (c : Fin 3) :
    mentionArr x w b (ix3 r s c) = mention x w b r s c := rfl

theorem similarityArr_ix (x : Hidden) (w : ProjW) (b : ProjB) (e : Entities) (r : Fin 8) (s : Fin 128) (j : Fin 50000) :
    similarityArr x w b e (ix3 r s j) = similarity x w b e r s j := rfl

end Cert.Spec

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.HeadBody.lean ====
import proofs.«120378_j66142496358618_1_alg».proof.Proof.Gen.KernelIdeal.Skeleton
import proofs.«120378_j66142496358618_1_alg».proof.Proof.Spec
import proofs.«120378_j66142496358618_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

/-
  What the head kernel's body computes from one batch row's blocks, entry by entry.

  The body reads a block of hidden states (one batch row: 128 positions by 768 features), both weight matrices and
  both biases. It stores (a) the normalised projection: tanh of the linear map, each position's vector divided by the
  larger of its Euclidean norm and the small constant; (b) the logarithm of the softmax along the positions of the
  mention logits. Changes of float format are the identity on the extended reals, a block product into a zero
  accumulator is the plain sum of products, and a transposed weight matrix read at (k, o) is the matrix at (o, k).
-/
namespace Cert.KernelIdeal.Head

open Cert.KernelIdeal Cert.KernelIdeal.Gen Idealize.ShloMosaic Idealize.ShloMosaic.ValueIdx Cert.Lib.Keepdims

theorem dotMention_l0 (i : S128x3.Idx) (q : dot_S128x768_S768x3_S128x3_1_0_0_1_n_n.contr.Idx) : (dot_S128x768_S768x3_S128x3_1_0_0_1_n_n.lhsIdx i q 0).val = (i 0).val := by
  unfold DotDims.lhsIdx
  rw [dif_neg (show ¬(0 : Fin S128x768.rank) ∈ dot_S128x768_S768x3_S128x3_1_0_0_1_n_n.lhsBatch by decide), dif_pos (show (0 : Fin S128x768.rank) ∈ dot_S128x768_S768x3_S128x3_1_0_0_1_n_n.lhsNonContracting by decide)]
  rfl
theorem dotMention_l1 (i : S128x3.Idx) (q : dot_S128x768_S768x3_S128x3_1_0_0_1_n_n.contr.Idx) : (dot_S128x768_S768x3_S128x3_1_0_0_1_n_n.lhsIdx i q 1).val = (q ⟨0, by decide⟩).val :=
  dot_S128x768_S768x3_S128x3_1_0_0_1_n_n.lhsIdx_val_of_single rfl i q
theorem dotMention_r0 (i : S128x3.Idx) (q : dot_S128x768_S768x3_S128x3_1_0_0_1_n_n.contr.Idx) : (dot_S128x768_S768x3_S128x3_1_0_0_1_n_n.rhsIdx i q 0).val = (q ⟨0, by decide⟩).val :=
  dot_S128x768_S768x3_S128x3_1_0_0_1_n_n.rhsIdx_val_of_single rfl i q
theorem dotMention_r1 (i : S128x3.Idx) (q : dot_S128x768_S768x3_S128x3_1_0_0_1_n_n.contr.Idx) : (dot_S128x768_S768x3_S128x3_1_0_0_1_n_n.rhsIdx i q 1).val = (i 1).val := by
  unfold DotDims.rhsIdx
  rw [dif_neg (show ¬(1 : Fin S768x3.rank) ∈ dot_S128x768_S768x3_S128x3_1_0_0_1_n_n.rhsBatch by decide), dif_pos (show (1 : Fin S768x3.rank) ∈ dot_S128x768_S768x3_S128x3_1_0_0_1_n_n.rhsNonContracting by decide)]
  rfl
/-- The block product into a zero accumulator, read at an entry: the sum over the shared axis of the products. -/
theorem dotMention (l : FVec Ideal S128x768 .bf16) (r : FVec Ideal S768x3 .bf16) (i : Fin 128) (j : Fin 3) :
    matmul dot_S128x768_S768x3_S128x3_1_0_0_1_n_n none l r (constant S128x3 .f32 0x00000000#32) (ix2 i j) = ∑ q : Fin 768, l (ix2 i q) * r (ix2 q j) := by
  simp only [matmul]
  rw [Ideal.matmul_constant_zero_apply, ← Equiv.sum_comp (ValueIdx.contrEquiv1 dot_S128x768_S768x3_S128x3_1_0_0_1_n_n 768 rfl rfl).symm]
  refine Finset.sum_congr rfl fun q _ => ?_
  have hq := ValueIdx.contrEquiv1_symm_val dot_S128x768_S768x3_S128x3_1_0_0_1_n_n 768 rfl rfl q
  have el : dot_S128x768_S768x3_S128x3_1_0_0_1_n_n.lhsIdx (ix2 i j) ((ValueIdx.contrEquiv1 dot_S128x768_S768x3_S128x3_1_0_0_1_n_n 768 rfl rfl).symm q) = ix2 i q := funext fun ax => Fin.ext (by
    match ax with
    | ⟨0, _⟩ => exact dotMention_l0 _ _
    | ⟨1, _⟩ => exact (dotMention_l1 _ _).trans hq)
  have er : dot_S128x768_S768x3_S128x3_1_0_0_1_n_n.rhsIdx (ix2 i j) ((ValueIdx.contrEquiv1 dot_S128x768_S768x3_S128x3_1_0_0_1_n_n 768 rfl rfl).symm q) = ix2 q j := funext fun ax => Fin.ext (by
    match ax with
    | ⟨0, _⟩ => exact (dotMention_r0 _ _).trans hq
    | ⟨1, _⟩ => exact dotMention_r1 _ _)
  rw [el, er]

theorem dotProj_l0 (i : S128x256.Idx) (q : dot_S128x768_S768x256_S128x256_1_0_0_1_n_n.contr.Idx) : (dot_S128x768_S768x256_S128x256_1_0_0_1_n_n.lhsIdx i q 0).val = (i 0).val := by
  unfold DotDims.lhsIdx
  rw [dif_neg (show ¬(0 : Fin S128x768.rank) ∈ dot_S128x768_S768x256_S128x256_1_0_0_1_n_n.lhsBatch by decide), dif_pos (show (0 : Fin S128x768.rank) ∈ dot_S128x768_S768x256_S128x256_1_0_0_1_n_n.lhsNonContracting by decide)]
  rfl
theorem dotProj_l1 (i : S128x256.Idx) (q : dot_S128x768_S768x256_S128x256_1_0_0_1_n_n.contr.Idx) : (dot_S128x768_S768x256_S128x256_1_0_0_1_n_n.lhsIdx i q 1).val = (q ⟨0, by decide⟩).val :=
  dot_S128x768_S768x256_S128x256_1_0_0_1_n_n.lhsIdx_val_of_single rfl i q
theorem dotProj_r0 (i : S128x256.Idx) (q : dot_S128x768_S768x256_S128x256_1_0_0_1_n_n.contr.Idx) : (dot_S128x768_S768x256_S128x256_1_0_0_1_n_n.rhsIdx i q 0).val = (q ⟨0, by decide⟩).val :=
  dot_S128x768_S768x256_S128x256_1_0_0_1_n_n.rhsIdx_val_of_single rfl i q
theorem dotProj_r1 (i : S128x256.Idx) (q : dot_S128x768_S768x256_S128x256_1_0_0_1_n_n.contr.Idx) : (dot_S128x768_S768x256_S128x256_1_0_0_1_n_n.rhsIdx i q 1).val = (i 1).val := by
  unfold DotDims.rhsIdx
  rw [dif_neg (show ¬(1 : Fin S768x256.rank) ∈ dot_S128x768_S768x256_S128x256_1_0_0_1_n_n.rhsBatch by decide), dif_pos (show (1 : Fin S768x256.rank) ∈ dot_S128x768_S768x256_S128x256_1_0_0_1_n_n.rhsNonContracting by decide)]
  rfl
/-- The block product into a zero accumulator, read at an entry: the sum over the shared axis of the products. -/
theorem dotProj (l : FVec Ideal S128x768 .bf16) (r : FVec Ideal S768x256 .bf16) (i : Fin 128) (j : Fin 256) :
    matmul dot_S128x768_S768x256_S128x256_1_0_0_1_n_n none l r (constant S128x256 .f32 0x00000000#32) (ix2 i j) = ∑ q : Fin 768, l (ix2 i q) * r (ix2 q j) := by
  simp only [matmul]
  rw [Ideal.matmul_constant_zero_apply, ← Equiv.sum_comp (ValueIdx.contrEquiv1 dot_S128x768_S768x256_S128x256_1_0_0_1_n_n 768 rfl rfl).symm]
  refine Finset.sum_congr rfl fun q _ => ?_
  have hq := ValueIdx.contrEquiv1_symm_val dot_S128x768_S768x256_S128x256_1_0_0_1_n_n 768 rfl rfl q
  have el : dot_S128x768_S768x256_S128x256_1_0_0_1_n_n.lhsIdx (ix2 i j) ((ValueIdx.contrEquiv1 dot_S128x768_S768x256_S128x256_1_0_0_1_n_n 768 rfl rfl).symm q) = ix2 i q := funext fun ax => Fin.ext (by
    match ax with
    | ⟨0, _⟩ => exact dotProj_l0 _ _
    | ⟨1, _⟩ => exact (dotProj_l1 _ _).trans hq)
  have er : dot_S128x768_S768x256_S128x256_1_0_0_1_n_n.rhsIdx (ix2 i j) ((ValueIdx.contrEquiv1 dot_S128x768_S768x256_S128x256_1_0_0_1_n_n 768 rfl rfl).symm q) = ix2 q j := funext fun ax => Fin.ext (by
    match ax with
    | ⟨0, _⟩ => exact (dotProj_r0 _ _).trans hq
    | ⟨1, _⟩ => exact dotProj_r1 _ _)
  rw [el, er]

/-! ## Pointwise functions read at an entry -/
section
variable {s : Shape} {φ : FTy}
theorem tanh_apply (v : FVec Ideal s φ) (i : s.Idx) : tanh v i = Ideal.tanh (v i) := rfl
theorem sqrt_apply (v : FVec Ideal s φ) (i : s.Idx) : sqrt v i = Ideal.sqrt (v i) := rfl
theorem exp_apply (v : FVec Ideal s φ) (i : s.Idx) : exp v i = Ideal.exp (v i) := rfl
theorem log_apply (v : FVec Ideal s φ) (i : s.Idx) : log v i = Ideal.log (v i) := rfl
theorem splat_apply (w : BitVec 32) (i : s.Idx) : broadcast s (Scalar.ofBits (F := Ideal) .f32 w) i = Ideal.ofBits .f32 w := rfl
end

/-! ## The body's reductions, read at an entry -/

/-- The maximum over the positions of a 128 × 3 array, from the start value. -/
theorem colMax_apply (L : FVec Ideal S128x3 .f32) (c : Fin 3) :
    multiReduction .maximumf [0] S3 L 0xFF800000#32 reduces_S128x3_S3 (.inl rfl) rfl (ix1 c)
      = (Finset.univ : Finset (Fin 128)).fold max Spec.startW (fun s => L (ix2 s c)) := by
  refine (Ideal.multiReduction_maximumf_single L 0xFF800000#32 reduces_S128x3_S3 (.inl rfl) rfl (ix1 c)).trans ?_
  show (Finset.univ : Finset (Fin 128)).fold max Spec.startW (fun s => L (reduces_S128x3_S3.lift (ix1 c) s)) = _
  refine congrArg (fun f => (Finset.univ : Finset (Fin 128)).fold max Spec.startW f) (funext fun s => congrArg L ?_)
  exact funext fun a => Fin.ext (by match a with | ⟨0, _⟩ => rfl | ⟨1, _⟩ => rfl)

/-- The sum over the positions of a 128 × 3 array. -/
theorem colSum_apply (L : FVec Ideal S128x3 .f32) (c : Fin 3) :
    multiReduction .add [0] S3 L 0x00000000#32 reduces_S128x3_S3 (.inl rfl) rfl (ix1 c) = ∑ s : Fin 128, L (ix2 s c) := by
  refine (Ideal.multiReduction_add_single L 0x00000000#32 reduces_S128x3_S3 (.inl rfl) rfl (ix1 c)).trans ?_
  show ∑ s : Fin 128, L (reduces_S128x3_S3.lift (ix1 c) s) = _
  refine Finset.sum_congr rfl fun s _ => congrArg L ?_
  exact funext fun a => Fin.ext (by match a with | ⟨0, _⟩ => rfl | ⟨1, _⟩ => rfl)

/-- The sum along a row of a 128 × 256 array. -/
theorem rowSum_apply (v : FVec Ideal S128x256 .f32) (s : Fin 128) :
    multiReduction .add [1] S128 v 0x00000000#32 reduces_S128x256_S128 (.inl rfl) rfl (ix1 s) = ∑ d : Fin 256, v (ix2 s d) := by
  refine (Ideal.multiReduction_add_single v 0x00000000#32 reduces_S128x256_S128 (.inl rfl) rfl (ix1 s)).trans ?_
  show ∑ d : Fin 256, v (reduces_S128x256_S128.lift (ix1 s) d) = _
  refine Finset.sum_congr rfl fun d _ => congrArg v ?_
  exact funext fun a => Fin.ext (by match a with | ⟨0, _⟩ => rfl | ⟨1, _⟩ => rfl)

/-- The block of hidden states as positions by features. -/
def rows (x0 : FVec Ideal S1x128x768 .f32) : Fin 128 → Fin 768 → EReal := fun s k => x0 (ix3 (0 : Fin 1) s k)

/-- The block with its unit axis dropped, in the matrix unit's format: the same numbers. -/
theorem pay2_apply (x0 : FVec Ideal S1x128x768 .f32) (s : Fin 128) (k : Fin 768) :
    k0_pay2 (F := Ideal) x0 (ix2 s k) = rows x0 s k := by
  unfold k0_pay2 rows
  exact shapeCast_1ab_ab_apply x0 _ s k

/-! ## The mention head -/

/-- The logits the body computes: the block product with the transposed weights, plus the bias row. -/
def logitsV (x0 : FVec Ideal S1x128x768 .f32) (x3 : FVec Ideal S3x768 .f32) (x4 : FVec Ideal S3 .f32) : FVec Ideal S128x3 .f32 :=
  addf (matmul dot_S128x768_S768x3_S128x3_1_0_0_1_n_n none (k0_pay2 x0)
      (transpose S768x3 [1, 0] (truncf .bf16 x3 bitsLt_bf16_f32) transposes_S3x768_p1_0_S768x3) (constant S128x3 .f32 0x00000000#32))
    (broadcastTo S128x3 (shapeCast S1x3 x4 shapeCasts_S3_S1x3) broadcasts_S1x3_S128x3)

theorem logitsV_apply (x0 : FVec Ideal S1x128x768 .f32) (x3 : FVec Ideal S3x768 .f32) (x4 : FVec Ideal S3 .f32) (s : Fin 128) (c : Fin 3) :
    logitsV x0 x3 x4 (ix2 s c) = Spec.lin (rows x0) (Spec.mat x3) (Spec.vec x4) s c := by
  unfold logitsV Spec.lin
  rw [addf_apply, dotMention, broadcastTo_1b_ab_apply, shapeCast_a_1a_apply]
  refine congrArg₂ (· + ·) (Finset.sum_congr rfl fun q _ => ?_) rfl
  rw [pay2_apply, transpose_ix2_apply]
  rfl

/-- The shifted logits as the body spells them. -/
theorem pay4_eq (x0 : FVec Ideal S1x128x768 .f32) (x3 : FVec Ideal S3x768 .f32) (x4 : FVec Ideal S3 .f32) :
    k0_pay4 (F := Ideal) x0 x3 x4 = subf (logitsV x0 x3 x4) (broadcastTo S128x3 (shapeCast S1x3
      (multiReduction .maximumf [0] S3 (logitsV x0 x3 x4) 0xFF800000#32 reduces_S128x3_S3 (.inl rfl) rfl) shapeCasts_S3_S1x3) broadcasts_S1x3_S128x3) := rfl

theorem pay4_apply (x0 : FVec Ideal S1x128x768 .f32) (x3 : FVec Ideal S3x768 .f32) (x4 : FVec Ideal S3 .f32) (s : Fin 128) (c : Fin 3) :
    k0_pay4 (F := Ideal) x0 x3 x4 (ix2 s c) = Spec.shifted (Spec.lin (rows x0) (Spec.mat x3) (Spec.vec x4)) s c := by
  rw [pay4_eq]
  have hL : ∀ s c, logitsV x0 x3 x4 (ix2 s c) = Spec.lin (rows x0) (Spec.mat x3) (Spec.vec x4) s c := logitsV_apply x0 x3 x4
  generalize logitsV x0 x3 x4 = L at hL ⊢
  rw [subf_apply, broadcastTo_1b_ab_apply, shapeCast_a_1a_apply, colMax_apply]
  unfold Spec.shifted Spec.topLogit
  simp only [hL]

/-- The logarithm of the sum of exponentials as the body spells it. -/
theorem pay5_eq (x0 : FVec Ideal S1x128x768 .f32) (x3 : FVec Ideal S3x768 .f32) (x4 : FVec Ideal S3 .f32) :
    k0_pay5 (F := Ideal) x0 x3 x4 = log (shapeCast S1x3 (multiReduction .add [0] S3 (exp (k0_pay4 x0 x3 x4)) 0x00000000#32
      reduces_S128x3_S3 (.inl rfl) rfl) shapeCasts_S3_S1x3) := rfl

theorem pay5_apply (x0 : FVec Ideal S1x128x768 .f32) (x3 : FVec Ideal S3x768 .f32) (x4 : FVec Ideal S3 .f32) (u : Fin 1) (c : Fin 3) :
    k0_pay5 (F := Ideal) x0 x3 x4 (ix2 u c)
      = Ideal.log (∑ s : Fin 128, Ideal.exp (Spec.shifted (Spec.lin (rows x0) (Spec.mat x3) (Spec.vec x4)) s c)) := by
  rw [pay5_eq]
  have hS := pay4_apply x0 x3 x4
  generalize k0_pay4 (F := Ideal) x0 x3 x4 = S at hS ⊢
  show Ideal.log (shapeCast S1x3 (multiReduction .add [0] S3 (exp S) 0x00000000#32 reduces_S128x3_S3 (.inl rfl) rfl) shapeCasts_S3_S1x3 (ix2 u c)) = _
  rw [shapeCast_a_1a_apply, colSum_apply]
  refine congrArg Ideal.log (Finset.sum_congr rfl fun s _ => ?_)
  show Ideal.exp (S (ix2 s c)) = _
  rw [hS]

/-- What the body stores for the mention head, at position s and class c of the block. -/
theorem mention_block (x0 : FVec Ideal S1x128x768 .f32) (x3 : FVec Ideal S3x768 .f32) (x4 : FVec Ideal S3 .f32) (u : Fin 1) (s : Fin 128) (c : Fin 3) :
    k0_pay1 (F := Ideal) (k0_pay4 x0 x3 x4) (k0_pay5 x0 x3 x4) (ix3 u s c)
      = Spec.logSoftmax (Spec.lin (rows x0) (Spec.mat x3) (Spec.vec x4)) s c := by
  have hS := pay4_apply x0 x3 x4
  have hZ := pay5_apply x0 x3 x4
  generalize k0_pay4 (F := Ideal) x0 x3 x4 = S at hS hZ ⊢
  generalize k0_pay5 (F := Ideal) x0 x3 x4 = Z at hZ ⊢
  unfold k0_pay1 Spec.logSoftmax
  rw [shapeCast_ab_1ab_apply, subf_apply, broadcastTo_1b_ab_apply, hS, hZ]

/-! ## The projection head -/

/-- The projection the body computes: tanh of the block product with the transposed weights plus the bias row. -/
def projV (x0 : FVec Ideal S1x128x768 .f32) (x1 : FVec Ideal S256x768 .f32) (x2 : FVec Ideal S256 .f32) : FVec Ideal S128x256 .f32 :=
  tanh (addf (matmul dot_S128x768_S768x256_S128x256_1_0_0_1_n_n none (k0_pay2 x0)
      (transpose S768x256 [1, 0] (truncf .bf16 x1 bitsLt_bf16_f32) transposes_S256x768_p1_0_S768x256) (constant S128x256 .f32 0x00000000#32))
    (broadcastTo S128x256 (shapeCast S1x256 x2 shapeCasts_S256_S1x256) broadcasts_S1x256_S128x256))

theorem projV_apply (x0 : FVec Ideal S1x128x768 .f32) (x1 : FVec Ideal S256x768 .f32) (x2 : FVec Ideal S256 .f32) (s : Fin 128) (d : Fin 256) :
    projV x0 x1 x2 (ix2 s d) = Spec.proj (rows x0) (Spec.mat x1) (Spec.vec x2) s d := by
  unfold projV Spec.proj Spec.lin
  rw [tanh_apply, addf_apply, dotProj, broadcastTo_1b_ab_apply, shapeCast_a_1a_apply]
  refine congrArg Ideal.tanh (congrArg₂ (· + ·) (Finset.sum_congr rfl fun q _ => ?_) rfl)
  rw [pay2_apply, transpose_ix2_apply]
  rfl

/-- The normalised projection as the body spells it. -/
theorem pay3_eq (x0 : FVec Ideal S1x128x768 .f32) (x1 : FVec Ideal S256x768 .f32) (x2 : FVec Ideal S256 .f32) :
    k0_pay3 (F := Ideal) x0 x1 x2 = shapeCast S1x128x256 (truncf .bf16 (divf (projV x0 x1 x2) (broadcastTo S128x256
      (maximumf (sqrt (shapeCast S128x1 (multiReduction .add [1] S128 (mulf (projV x0 x1 x2) (projV x0 x1 x2)) 0x00000000#32
        reduces_S128x256_S128 (.inl rfl) rfl) shapeCasts_S128_S128x1)) (broadcast S128x1 (Scalar.ofBits .f32 0x322BCC77#32)))
      broadcasts_S128x1_S128x256)) bitsLt_bf16_f32) shapeCasts_S128x256_S1x128x256 := rfl

/-- What the body stores for the projection head, at position s and entry d of the block. -/
theorem proj_block (x0 : FVec Ideal S1x128x768 .f32) (x1 : FVec Ideal S256x768 .f32) (x2 : FVec Ideal S256 .f32) (u : Fin 1) (s : Fin 128) (d : Fin 256) :
    k0_pay3 (F := Ideal) x0 x1 x2 (ix3 u s d) = Spec.unit (Spec.proj (rows x0) (Spec.mat x1) (Spec.vec x2) s) d := by
  rw [pay3_eq]
  have hP := projV_apply x0 x1 x2
  generalize projV x0 x1 x2 = Pv at hP ⊢
  rw [shapeCast_ab_1ab_apply, truncf_apply, divf_apply, broadcastTo_a1_ab_apply, maximumf_apply, sqrt_apply, splat_apply,
    shapeCast_a_a1_apply, rowSum_apply]
  unfold Spec.unit
  rw [hP]
  refine congrArg (fun z => Ideal.div _ (max (Ideal.sqrt z) Spec.floorW)) (Finset.sum_congr rfl fun d' _ => ?_)
  rw [mulf_apply, hP]

end Cert.KernelIdeal.Head

end
-- ==== Proof.HeadArray.lean ====
import proofs.«120378_j66142496358618_1_alg».proof.Proof.Gen.KernelIdeal.Frame
import proofs.«120378_j66142496358618_1_alg».proof.Proof.HeadBody
import proofs.«120378_j66142496358618_1_alg».proof.Proof.Spec
import Idealize.ShloMosaic.Lib.Pipeline.Value
import Idealize.ShloMosaic.Lib.ValueIdx

set_option maxRecDepth 16384

noncomputable section

/-
  The head kernel's two result arrays after its region, as whole-array functions of the arrays the region reads.

  The grid has eight points, one per batch row. At point t the hidden-state window holds batch row t, the four
  parameter windows hold their whole arrays, and both outputs write back block t (one batch row) of their arrays.
  So what point t writes back is block t of one whole-array function of the inputs, the eight blocks tile each
  output array, and each output array ends holding that function.
-/
namespace Cert.KernelIdeal.Head

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The normalised projections as one array of 8 batch rows, 128 positions, 256 entries. -/
def projArr (x : Spec.Hidden) (w : Spec.ProjW) (b : Spec.ProjB) : S8x128x256.Idx → EReal :=
  fun i => Spec.projUnit x w b ⟨(i 0).val, (i 0).isLt⟩ ⟨(i 1).val, (i 1).isLt⟩ ⟨(i 2).val, (i 2).isLt⟩

theorem projArr_ix (x : Spec.Hidden) (w : Spec.ProjW) (b : Spec.ProjB) (r : Fin 8) (s : Fin 128) (d : Fin 256) :
    projArr x w b (ix3 r s d) = Spec.projUnit x w b r s d := rfl

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the hidden-state window and both outputs move with the point along the
    batch axis; the parameter windows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The point as a batch row. -/
def rowOf (t : Fin cfg0.N) : Fin 8 := ⟨t.val, by have := t.isLt; have hN : cfg0.N = 8 := N_0; omega⟩

/-- The hidden-state block at point t is batch row t. -/
theorem hidden_block (c : Dev nD) (t : Fin cfg0.N) :
    rows (iblk0 V c 0 t) = Spec.row (V c main_arg0) (rowOf t) := by
  obtain ⟨e0, e1, e2, -⟩ := idx_facts t
  funext s k
  show V c main_arg0 (((cfg0.win 0).blk t).view.emb (ix3 (0 : Fin 1) s k)) = V c main_arg0 (ix3 (rowOf t) s k)
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 128 + 1 * s.val = s.val; omega
  | ⟨2, _⟩ => show win0_0.index t (2 : Fin 3) * 768 + 1 * k.val = k.val; omega

/-- The parameter blocks at any point are the whole parameter arrays. -/
theorem projW_block (c : Dev nD) (t : Fin cfg0.N) : Spec.mat (iblk0 V c 1 t) = Spec.mat (V c main_arg1) := by
  obtain ⟨-, -, -, e0, e1, -⟩ := idx_facts t
  funext o k
  show V c main_arg1 (((cfg0.win 1).blk t).view.emb (ix2 o k)) = V c main_arg1 (ix2 o k)
  refine congrArg (V c main_arg1) (funext fun a => Fin.ext ?_)
  match a with
  | ⟨0, _⟩ => show win0_1.index t (0 : Fin 2) * 256 + 1 * o.val = o.val; omega
  | ⟨1, _⟩ => show win0_1.index t (1 : Fin 2) * 768 + 1 * k.val = k.val; omega

theorem projB_block (c : Dev nD) (t : Fin cfg0.N) : Spec.vec (iblk0 V c 2 t) = Spec.vec (V c main_arg2) := by
  obtain ⟨-, -, -, -, -, e0, -⟩ := idx_facts t
  funext o
  show V c main_arg2 (((cfg0.win 2).blk t).view.emb (ix1 o)) = V c main_arg2 (ix1 o)
  refine congrArg (V c main_arg2) (funext fun a => Fin.ext ?_)
  match a with
  | ⟨0, _⟩ => show win0_2.index t (0 : Fin 1) * 256 + 1 * o.val = o.val; omega

theorem mdW_block (c : Dev nD) (t : Fin cfg0.N) : Spec.mat (iblk0 V c 3 t) = Spec.mat (V c main_arg3) := by
  obtain ⟨-, -, -, -, -, -, e0, e1, -⟩ := idx_facts t
  funext o k
  show V c main_arg3 (((cfg0.win 3).blk t).view.emb (ix2 o k)) = V c main_arg3 (ix2 o k)
  refine congrArg (V c main_arg3) (funext fun a => Fin.ext ?_)
  match a with
  | ⟨0, _⟩ => show win0_3.index t (0 : Fin 2) * 3 + 1 * o.val = o.val; omega
  | ⟨1, _⟩ => show win0_3.index t (1 : Fin 2) * 768 + 1 * k.val = k.val; omega

theorem mdB_block (c : Dev nD) (t : Fin cfg0.N) : Spec.vec (iblk0 V c 4 t) = Spec.vec (V c main_arg4) := by
  obtain ⟨-, -, -, -, -, -, -, -, e0, -⟩ := idx_facts t
  funext o
  show V c main_arg4 (((cfg0.win 4).blk t).view.emb (ix1 o)) = V c main_arg4 (ix1 o)
  refine congrArg (V c main_arg4) (funext fun a => Fin.ext ?_)
  match a with
  | ⟨0, _⟩ => show win0_4.index t (0 : Fin 1) * 3 + 1 * o.val = o.val; omega

/-! ## What a point writes back -/

/-- A stored block that is, entry by entry, a whole-array function read through an embedding of block indices. -/
theorem block_eq_of_entries {n0 n1 n2 : Nat} {T : Shape} (B : (⟨3, ![n0, n1, n2]⟩ : Shape).Idx → EReal) (G : T.Idx → EReal)
    (emb : (⟨3, ![n0, n1, n2]⟩ : Shape).Idx → T.Idx) (h : ∀ u s k, B (ix3 u s k) = G (emb (ix3 u s k))) :
    B = fun y => G (emb y) := by
  funext y
  rw [eq_ix3 y]
  exact h _ _ _

/-- Point t writes back block t of the mention head's result array. -/
theorem flushed_mention (c : Dev nD) (t : Fin cfg0.N) :
    (dat0 V c).flushed 6 t = ((cfg0.win 6).blk t).view.read (Elt Ideal) (Spec.mentionArr (V c main_arg0) (V c main_arg3) (V c main_arg4)) := by
  show (cfg0.win 6).cut (grid0.coords t) ((dat0 V c).after 6 t) = _
  rw [after0_6]
  unfold out0_6
  rw [View.canon_unit_zero hz3]
  simp only [View.ld_unit_zero (S := S1x128x768) hz3, View.ld_unit_zero (S := S3x768) hz2, View.ld_unit_zero (S := S3) hz1]
  obtain ⟨-, -, -, -, -, -, -, -, -, -, -, -, e0, e1, e2⟩ := idx_facts t
  refine block_eq_of_entries _ _ _ fun u s k => ?_
  show k0_pay1 (F := Ideal) (k0_pay4 (iblk0 V c 0 t) (iblk0 V c 3 t) (iblk0 V c 4 t)) (k0_pay5 (iblk0 V c 0 t) (iblk0 V c 3 t) (iblk0 V c 4 t)) (ix3 u s k)
    = Spec.mentionArr (V c main_arg0) (V c main_arg3) (V c main_arg4) (((cfg0.win 6).blk t).view.emb (ix3 u s k))
  rw [mention_block, hidden_block V c t, mdW_block V c t, mdB_block V c t]
  have hi : ((cfg0.win 6).blk t).view.emb (ix3 u s k) = ix3 (rowOf t) s k := funext fun a => Fin.ext (by
    have hu : u.val = 0 := by omega
    match a with
    | ⟨0, _⟩ => show win0_6.index t (0 : Fin 3) * 1 + 1 * u.val = t.val; omega
    | ⟨1, _⟩ => show win0_6.index t (1 : Fin 3) * 128 + 1 * s.val = s.val; omega
    | ⟨2, _⟩ => show win0_6.index t (2 : Fin 3) * 3 + 1 * k.val = k.val; omega)
  rw [hi, Spec.mentionArr_ix]
  rfl

/-- Point t writes back block t of the array of normalised projections. -/
theorem flushed_proj (c : Dev nD) (t : Fin cfg0.N) :
    (dat0 V c).flushed 5 t = ((cfg0.win 5).blk t).view.read (Elt Ideal) (projArr (V c main_arg0) (V c main_arg1) (V c main_arg2)) := by
  show (cfg0.win 5).cut (grid0.coords t) ((dat0 V c).after 5 t) = _
  rw [after0_5]
  unfold out0_5
  rw [View.canon_unit_zero hz3]
  simp only [View.ld_unit_zero (S := S1x128x768) hz3, View.ld_unit_zero (S := S256x768) hz2, View.ld_unit_zero (S := S256) hz1]
  obtain ⟨-, -, -, -, -, -, -, -, -, e0, e1, e2, -⟩ := idx_facts t
  refine block_eq_of_entries _ _ _ fun u s d => ?_
  show k0_pay3 (F := Ideal) (iblk0 V c 0 t) (iblk0 V c 1 t) (iblk0 V c 2 t) (ix3 u s d)
    = projArr (V c main_arg0) (V c main_arg1) (V c main_arg2) (((cfg0.win 5).blk t).view.emb (ix3 u s d))
  rw [proj_block, hidden_block V c t, projW_block V c t, projB_block V c t]
  have hi : ((cfg0.win 5).blk t).view.emb (ix3 u s d) = ix3 (rowOf t) s d := funext fun a => Fin.ext (by
    have hu : u.val = 0 := by omega
    match a with
    | ⟨0, _⟩ => show win0_5.index t (0 : Fin 3) * 1 + 1 * u.val = t.val; omega
    | ⟨1, _⟩ => show win0_5.index t (1 : Fin 3) * 128 + 1 * s.val = s.val; omega
    | ⟨2, _⟩ => show win0_5.index t (2 : Fin 3) * 256 + 1 * d.val = d.val; omega)
  rw [hi, projArr_ix]
  rfl

/-! ## The blocks tile the arrays -/

/-- An index of the mention array is in point t's block iff each coordinate is in the block's range on its axis. -/
theorem mem_blk_mention (t : Fin cfg0.N) (i : S8x128x3.Idx) :
    i ∈ ((cfg0.win 6).blk t).view.set ↔ ∀ a : Fin 3, win0_6.index t a * S1x128x3.size a ≤ (i a).val ∧ (i a).val < win0_6.index t a * S1x128x3.size a + S1x128x3.size a := by
  show i ∈ ((View.whole main_v0_1).slice (win0_6.rect t)).set ↔ _
  rw [View.set_slice_whole, Rect.mem_set_unit]
  exact Iff.rfl

theorem mem_blk_proj (t : Fin cfg0.N) (i : S8x128x256.Idx) :
    i ∈ ((cfg0.win 5).blk t).view.set ↔ ∀ a : Fin 3, win0_5.index t a * S1x128x256.size a ≤ (i a).val ∧ (i a).val < win0_5.index t a * S1x128x256.size a + S1x128x256.size a := by
  show i ∈ ((View.whole main_v0_0).slice (win0_5.rect t)).set ↔ _
  rw [View.set_slice_whole, Rect.mem_set_unit]
  exact Iff.rfl

/-- The point of a batch row. -/
def pointOf (r : Nat) (hr : r < 8) : Fin cfg0.N := ⟨r, by have hN : cfg0.N = 8 := N_0; omega⟩

/-- After the region the mention array holds the mention head's result of the arrays the region read. -/
theorem mention_array (c : Dev nD) :
    (dat0 V c).arrAt 6 cfg0.N = Spec.mentionArr (V c main_arg0) (V c main_arg3) (V c main_arg4) :=
  (dat0 V c).arrAt_eq_of_cover 6 _ (fun t _ => flushed_mention V c t) fun i => by
    have h0 : (i 0).val < 8 := (i 0).isLt
    have h1 : (i 1).val < 128 := (i 1).isLt
    have h2 : (i 2).val < 3 := (i 2).isLt
    refine ⟨pointOf (i 0).val h0, flush0_6 _, ?_⟩
    rw [mem_blk_mention]
    obtain ⟨-, -, -, -, -, -, -, -, -, -, -, -, e0, e1, e2⟩ := idx_facts (pointOf (i 0).val h0)
    have e0' : win0_6.index (pointOf (i 0).val h0) (0 : Fin 3) = (i 0).val := e0
    intro a
    match a with
    | ⟨0, _⟩ => show win0_6.index (pointOf (i 0).val h0) (0 : Fin 3) * 1 ≤ (i 0).val ∧ (i 0).val < win0_6.index (pointOf (i 0).val h0) (0 : Fin 3) * 1 + 1; omega
    | ⟨1, _⟩ => show win0_6.index (pointOf (i 0).val h0) (1 : Fin 3) * 128 ≤ (i 1).val ∧ (i 1).val < win0_6.index (pointOf (i 0).val h0) (1 : Fin 3) * 128 + 128; omega
    | ⟨2, _⟩ => show win0_6.index (pointOf (i 0).val h0) (2 : Fin 3) * 3 ≤ (i 2).val ∧ (i 2).val < win0_6.index (pointOf (i 0).val h0) (2 : Fin 3) * 3 + 3; omega

/-- After the region the projection array holds the normalised projections of the arrays the region read. -/
theorem proj_array (c : Dev nD) :
    (dat0 V c).arrAt 5 cfg0.N = projArr (V c main_arg0) (V c main_arg1) (V c main_arg2) :=
  (dat0 V c).arrAt_eq_of_cover 5 _ (fun t _ => flushed_proj V c t) fun i => by
    have h0 : (i 0).val < 8 := (i 0).isLt
    have h1 : (i 1).val < 128 := (i 1).isLt
    have h2 : (i 2).val < 256 := (i 2).isLt
    refine ⟨pointOf (i 0).val h0, flush0_5 _, ?_⟩
    rw [mem_blk_proj]
    obtain ⟨-, -, -, -, -, -, -, -, -, e0, e1, e2, -⟩ := idx_facts (pointOf (i 0).val h0)
    have e0' : win0_5.index (pointOf (i 0).val h0) (0 : Fin 3) = (i 0).val := e0
    intro a
    match a with
    | ⟨0, _⟩ => show win0_5.index (pointOf (i 0).val h0) (0 : Fin 3) * 1 ≤ (i 0).val ∧ (i 0).val < win0_5.index (pointOf (i 0).val h0) (0 : Fin 3) * 1 + 1; omega
    | ⟨1, _⟩ => show win0_5.index (pointOf (i 0).val h0) (1 : Fin 3) * 128 ≤ (i 1).val ∧ (i 1).val < win0_5.index (pointOf (i 0).val h0) (1 : Fin 3) * 128 + 128; omega
    | ⟨2, _⟩ => show win0_5.index (pointOf (i 0).val h0) (2 : Fin 3) * 256 ≤ (i 2).val ∧ (i 2).val < win0_5.index (pointOf (i 0).val h0) (2 : Fin 3) * 256 + 256; omega

end Cert.KernelIdeal.Head

end
-- ==== Proof.Boundaries.lean ====
import proofs.«120378_j66142496358618_1_alg».proof.Proof.Gen.KernelIdeal.Frame
import proofs.«120378_j66142496358618_1_alg».proof.Proof.HeadArray
import Idealize.ShloMosaic.Lib.StableHlo.Run
import Idealize.ShloMosaic.Lib.KernelVsHost

set_option maxRecDepth 16384

noncomputable section

/-
  The buffer contents at the boundaries of the idealised kernel program, traced back to the launch memory.

  The mention result is written by the first region and by nothing after it. The second region reads the first
  region's projection array reshaped from 8 × 128 rows to 1024 rows, and the entity table padded with 1200 rows
  of the padding value; the similarity result is the second region's array with the padding columns cut off,
  reshaped back to 8 × 128 rows.
-/
namespace Cert.KernelIdeal.Glue

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The mention result at the last boundary is the first region's mention array. -/
theorem mention_result (c : Dev nD) : W5 m ρ c (Proc.devRef .tc main_v0_1) = (dat0 (V0 m ρ) c).arrAt 6 cfg0.N :=
  calc W5 m ρ c (Proc.devRef .tc main_v0_1)
    _ = W4 m ρ c (Proc.devRef .tc main_v0_1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0_1) := W4_of_ne m ρ c main_v0_1 (by decide)
    _ = W2 m ρ c (Proc.devRef .tc main_v0_1) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0_1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V0 m ρ) c).arrAt 6 cfg0.N := W1_arr m ρ c 6

/-- The second region's first operand: the first region's projection array, reshaped to 1024 rows. -/
theorem proj_operand (c : Dev nD) :
    V3 m ρ c main_v1 = shapeCast S1024x256 ((dat0 (V0 m ρ) c).arrAt 5 cfg0.N) shapeCasts_S8x128x256_S1024x256 := by
  show StableHlo.after hostOps1_1 (StableHlo.after hostOps1 (W1 m ρ c)) (Proc.devRef .tc main_v1) = _
  after_results
  exact congrArg (fun A => shapeCast S1024x256 A shapeCasts_S8x128x256_S1024x256) (W1_arr m ρ c 5)

/-- The entity table is as launched when the first region ends. -/
theorem ent_kept (c : Dev nD) : W1 m ρ c (Proc.devRef .tc main_arg5) = m ((c : Thread nD τ).loc main_arg5) :=
  (W1_of_ne m ρ c main_arg5 (by decide)).trans rfl

/-- The second region's second operand: the entity table with 1200 rows of the padding value below it. -/
theorem ent_operand (c : Dev nD) :
    V3 m ρ c main_v2 = pad S51200x256 ![0, 0] ![1200, 0] ![0, 0] (m ((c : Thread nD τ).loc main_arg5))
      (sitofp (F := Ideal) .f32 (constantI S_ 32 0#32)) pads_S50000x256_S51200x256_012000_000 h_S_ := by
  show StableHlo.after hostOps1_1 (StableHlo.after hostOps1 (W1 m ρ c)) (Proc.devRef .tc main_v2) = _
  after_results
  show pad S51200x256 ![0, 0] ![1200, 0] ![0, 0] (W1 m ρ c (Proc.devRef .tc main_arg5))
      (sitofp (F := Ideal) .f32 (constantI S_ 32 0#32)) pads_S50000x256_S51200x256_012000_000 h_S_ = _
  rw [ent_kept]

/-- The similarity result at the last boundary: the second region's array, its padding columns cut off, reshaped to
    8 × 128 rows. -/
theorem sim_result (c : Dev nD) :
    W5 m ρ c (Proc.devRef .tc main_v5) = shapeCast S8x128x50000 (extractStridedSlice S1024x50000 ![0, 0]
      ((dat1 (V3 m ρ) c).arrAt 2 cfg1.N) slices_S1024x51200_S1024x50000_0_0) shapeCasts_S1024x50000_S8x128x50000 := by
  show StableHlo.after hostOps2 (W4 m ρ c) (Proc.devRef .tc main_v5) = _
  after_results
  exact congrArg (fun A => shapeCast S8x128x50000 (extractStridedSlice S1024x50000 ![0, 0] A slices_S1024x51200_S1024x50000_0_0)
    shapeCasts_S1024x50000_S8x128x50000) (W4_arr m ρ c 2)

/-- The first region enters from the launch memory: its input arrays are the arguments. -/
theorem entry_arg (c : Dev nD) (b : Ref sig .tc) : V0 m ρ c b = m ((c : Thread nD τ).loc b) := rfl

end Cert.KernelIdeal.Glue

end
-- ==== Proof.SimBody.lean ====
import proofs.«120378_j66142496358618_1_alg».proof.Proof.Gen.KernelIdeal.Skeleton
import proofs.«120378_j66142496358618_1_alg».proof.Proof.Spec
import proofs.«120378_j66142496358618_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import proofs.«120378_j66142496358618_1_alg».proof.Proof.HeadBody

noncomputable section

/-
  What the similarity kernel's body computes from its blocks, entry by entry.

  The body reads the whole matrix of normalised projections (1024 positions by 256 entries) and a block of 1280
  entity rows. Each entity row is divided by the larger of its Euclidean norm and the small constant; the block
  product with the transposed result, into a zero accumulator, is the inner product of a position's vector with an
  entity's normalised row.
-/
namespace Cert.KernelIdeal.Sim

open Cert.KernelIdeal Cert.KernelIdeal.Gen Idealize.ShloMosaic Idealize.ShloMosaic.ValueIdx Cert.Lib.Keepdims
open Cert.KernelIdeal.Head (sqrt_apply splat_apply)

theorem dotSim_l0 (i : S1024x1280.Idx) (q : dot_S1024x256_S256x1280_S1024x1280_1_0_0_1_n_n.contr.Idx) : (dot_S1024x256_S256x1280_S1024x1280_1_0_0_1_n_n.lhsIdx i q 0).val = (i 0).val := by
  unfold DotDims.lhsIdx
  rw [dif_neg (show ¬(0 : Fin S1024x256.rank) ∈ dot_S1024x256_S256x1280_S1024x1280_1_0_0_1_n_n.lhsBatch by decide), dif_pos (show (0 : Fin S1024x256.rank) ∈ dot_S1024x256_S256x1280_S1024x1280_1_0_0_1_n_n.lhsNonContracting by decide)]
  rfl
theorem dotSim_l1 (i : S1024x1280.Idx) (q : dot_S1024x256_S256x1280_S1024x1280_1_0_0_1_n_n.contr.Idx) : (dot_S1024x256_S256x1280_S1024x1280_1_0_0_1_n_n.lhsIdx i q 1).val = (q ⟨0, by decide⟩).val :=
  dot_S1024x256_S256x1280_S1024x1280_1_0_0_1_n_n.lhsIdx_val_of_single rfl i q
theorem dotSim_r0 (i : S1024x1280.Idx) (q : dot_S1024x256_S256x1280_S1024x1280_1_0_0_1_n_n.contr.Idx) : (dot_S1024x256_S256x1280_S1024x1280_1_0_0_1_n_n.rhsIdx i q 0).val = (q ⟨0, by decide⟩).val :=
  dot_S1024x256_S256x1280_S1024x1280_1_0_0_1_n_n.rhsIdx_val_of_single rfl i q
theorem dotSim_r1 (i : S1024x1280.Idx) (q : dot_S1024x256_S256x1280_S1024x1280_1_0_0_1_n_n.contr.Idx) : (dot_S1024x256_S256x1280_S1024x1280_1_0_0_1_n_n.rhsIdx i q 1).val = (i 1).val := by
  unfold DotDims.rhsIdx
  rw [dif_neg (show ¬(1 : Fin S256x1280.rank) ∈ dot_S1024x256_S256x1280_S1024x1280_1_0_0_1_n_n.rhsBatch by decide), dif_pos (show (1 : Fin S256x1280.rank) ∈ dot_S1024x256_S256x1280_S1024x1280_1_0_0_1_n_n.rhsNonContracting by decide)]
  rfl
/-- The block product into a zero accumulator, read at an entry: the sum over the shared axis of the products. -/
theorem dotSim (l : FVec Ideal S1024x256 .bf16) (r : FVec Ideal S256x1280 .bf16) (i : Fin 1024) (j : Fin 1280) :
    matmul dot_S1024x256_S256x1280_S1024x1280_1_0_0_1_n_n none l r (constant S1024x1280 .f32 0x00000000#32) (ix2 i j) = ∑ q : Fin 256, l (ix2 i q) * r (ix2 q j) := by
  simp only [matmul]
  rw [Ideal.matmul_constant_zero_apply, ← Equiv.sum_comp (ValueIdx.contrEquiv1 dot_S1024x256_S256x1280_S1024x1280_1_0_0_1_n_n 256 rfl rfl).symm]
  refine Finset.sum_congr rfl fun q _ => ?_
  have hq := ValueIdx.contrEquiv1_symm_val dot_S1024x256_S256x1280_S1024x1280_1_0_0_1_n_n 256 rfl rfl q
  have el : dot_S1024x256_S256x1280_S1024x1280_1_0_0_1_n_n.lhsIdx (ix2 i j) ((ValueIdx.contrEquiv1 dot_S1024x256_S256x1280_S1024x1280_1_0_0_1_n_n 256 rfl rfl).symm q) = ix2 i q := funext fun ax => Fin.ext (by
    match ax with
    | ⟨0, _⟩ => exact dotSim_l0 _ _
    | ⟨1, _⟩ => exact (dotSim_l1 _ _).trans hq)
  have er : dot_S1024x256_S256x1280_S1024x1280_1_0_0_1_n_n.rhsIdx (ix2 i j) ((ValueIdx.contrEquiv1 dot_S1024x256_S256x1280_S1024x1280_1_0_0_1_n_n 256 rfl rfl).symm q) = ix2 q j := funext fun ax => Fin.ext (by
    match ax with
    | ⟨0, _⟩ => exact (dotSim_r0 _ _).trans hq
    | ⟨1, _⟩ => exact dotSim_r1 _ _)
  rw [el, er]

/-- The sum along a row of a 1280 × 256 array. -/
theorem rowSum_apply (v : FVec Ideal S1280x256 .f32) (j : Fin 1280) :
    multiReduction .add [1] S1280 v 0x00000000#32 reduces_S1280x256_S1280 (.inl rfl) rfl (ix1 j) = ∑ d : Fin 256, v (ix2 j d) := by
  refine (Ideal.multiReduction_add_single v 0x00000000#32 reduces_S1280x256_S1280 (.inl rfl) rfl (ix1 j)).trans ?_
  show ∑ d : Fin 256, v (reduces_S1280x256_S1280.lift (ix1 j) d) = _
  refine Finset.sum_congr rfl fun d _ => congrArg v ?_
  exact funext fun a => Fin.ext (by match a with | ⟨0, _⟩ => rfl | ⟨1, _⟩ => rfl)

/-- The block of entity rows, each divided by the larger of its norm and the small constant. -/
def entV (e : FVec Ideal S1280x256 .f32) : FVec Ideal S1280x256 .f32 :=
  divf e (broadcastTo S1280x256 (maximumf (sqrt (shapeCast S1280x1 (multiReduction .add [1] S1280 (mulf e e) 0x00000000#32
    reduces_S1280x256_S1280 (.inl rfl) rfl) shapeCasts_S1280_S1280x1)) (broadcast S1280x1 (Scalar.ofBits .f32 0x322BCC77#32)))
    broadcasts_S1280x1_S1280x256)

theorem entV_apply (e : FVec Ideal S1280x256 .f32) (j : Fin 1280) (d : Fin 256) :
    entV e (ix2 j d) = Spec.unit (fun d' => e (ix2 j d')) d := by
  unfold entV Spec.unit
  rw [divf_apply, broadcastTo_a1_ab_apply, maximumf_apply, sqrt_apply, splat_apply, shapeCast_a_a1_apply, rowSum_apply]
  refine congrArg (fun z => Ideal.div _ (max (Ideal.sqrt z) Spec.floorW)) (Finset.sum_congr rfl fun d' _ => ?_)
  rw [mulf_apply]

/-- The stored block as the body spells it. -/
theorem pay1_eq (p : FVec Ideal S1024x256 .bf16) (e : FVec Ideal S1280x256 .f32) :
    k1_pay1 (F := Ideal) p e = matmul dot_S1024x256_S256x1280_S1024x1280_1_0_0_1_n_n none (shapeCast S1024x256 p shapeCasts_S1024x256_S1024x256)
      (transpose S256x1280 [1, 0] (truncf .bf16 (entV (shapeCast S1280x256 e shapeCasts_S1280x256_S1280x256)) bitsLt_bf16_f32)
        transposes_S1280x256_p1_0_S256x1280) (constant S1024x1280 .f32 0x00000000#32) := rfl

/-- What the body stores, at position i and entity row j of the block. -/
theorem sim_block (p : FVec Ideal S1024x256 .bf16) (e : FVec Ideal S1280x256 .f32) (i : Fin 1024) (j : Fin 1280) :
    k1_pay1 (F := Ideal) p e (ix2 i j) = ∑ d : Fin 256, p (ix2 i d) * Spec.unit (fun d' => e (ix2 j d')) d := by
  rw [pay1_eq, shapeCast_self, shapeCast_self, dotSim]
  refine Finset.sum_congr rfl fun d _ => ?_
  rw [transpose_ix2_apply, truncf_apply, entV_apply]

end Cert.KernelIdeal.Sim

end
-- ==== Proof.SimArray.lean ====
/-
  From the blocks the similarity kernel writes back to the whole output array.

  The region has forty points. At every point the body reads the whole matrix of normalised projections (1024 by 256)
  and block t of the padded entity table (rows 1280·t … 1280·t + 1279 of 51200), and writes back block t of the output
  (columns 1280·t … 1280·t + 1279 of 51200, all 1024 rows). Each written block is the corresponding block of one function
  of the two input arrays, and the forty blocks tile the output, so the output array ends holding that function.
-/
import proofs.«120378_j66142496358618_1_alg».proof.Proof.Gen.KernelIdeal.Frame
import proofs.«120378_j66142496358618_1_alg».proof.Proof.SimBody
import proofs.«120378_j66142496358618_1_alg».proof.Proof.Spec
import Idealize.ShloMosaic.Lib.Pipeline.Value

noncomputable section

namespace Cert.KernelIdeal.Sim

open Cert.KernelIdeal Cert.KernelIdeal.Gen Idealize.ShloMosaic Idealize.ShloMosaic.ValueIdx Idealize.ShloMosaic.TcCoe Idealize.SL.Sem
open Idealize.ShloMosaic.Pipeline (Dat)

/-- Every position against every row of the padded entity table. -/
def simPadded (P : S1024x256.Idx → EReal) (E : S51200x256.Idx → EReal) : S1024x51200.Idx → EReal :=
  fun i => ∑ d : Fin 256, P (ix2 ⟨(i 0).val, (i 0).isLt⟩ d) * Cert.Spec.unit (fun d' => E (ix2 ⟨(i 1).val, (i 1).isLt⟩ d')) d

variable (V : (c : Dev nD) → (b : Ref sig .tc) → Buf (Elt Ideal) ((c : Thread nD τ).loc b))

theorem zeroOffsets : (![0, 0] : Fin 2 → Nat) = fun _ => 0 := funext fun a => by fin_cases a <;> rfl

theorem blockIndices : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val :=
  (by decide +kernel : ∀ t : Fin grid1.N, _)

/-- An entry of the block the body stores is the padded array's entry there, when the two input blocks are the input
    arrays read where the block's position says: the whole projection matrix, and rows n·1280 … n·1280 + 1279 of the table. -/
theorem entry_of_blocks (P : S1024x256.Idx → EReal) (E : S51200x256.Idx → EReal)
    (p : FVec Ideal S1024x256 .bf16) (e : FVec Ideal S1280x256 .f32) (n : Nat)
    (hp : ∀ (i : Fin 1024) (d : Fin 256), p (ix2 i d) = P (ix2 i d))
    (he : ∀ (j : Fin 1280) (d : Fin 256) (k : S51200x256.Idx), (k 0).val = n * 1280 + j.val → (k 1).val = d.val →
      e (ix2 j d) = E k)
    (i : Fin 1024) (j : Fin 1280) (o : S1024x51200.Idx) (ho0 : (o 0).val = i.val) (ho1 : (o 1).val = n * 1280 + j.val) :
    k1_pay1 (F := Ideal) p e (ix2 i j) = simPadded P E o := by
  rw [sim_block]
  unfold simPadded
  refine Finset.sum_congr rfl fun d _ => ?_
  rw [hp]
  have h1 : P (ix2 i d) = P (ix2 ⟨(o 0).val, (o 0).isLt⟩ d) :=
    congrArg P (funext fun a => Fin.ext (by match a with | ⟨0, _⟩ => exact ho0.symm | ⟨1, _⟩ => rfl))
  have h2 : (fun d' : Fin 256 => e (ix2 j d')) = fun d' : Fin 256 => E (ix2 ⟨(o 1).val, (o 1).isLt⟩ d') :=
    funext fun d' => he j d' _ ho1 rfl
  rw [h1, h2]

/-- What point t writes back is block t of the padded array of the two input arrays as the region finds them. -/
theorem flushed_eq (c : Dev nD) (t : Fin cfg1.N) :
    (dat1 (F := Ideal) V c).flushed 2 t
      = ((cfg1.win 2).blk t).view.read (Elt Ideal) (simPadded (V c main_v1) (V c main_v2)) := by
  show (cfg1.win 2).cut (grid1.coords t) ((dat1 V c).after 2 t) = _
  rw [after1_2]
  unfold out1_2
  rw [View.canon_unit_zero zeroOffsets]
  simp only [View.ld_unit_zero (S := S1024x256) zeroOffsets, View.ld_unit_zero (S := S1280x256) zeroOffsets]
  obtain ⟨e0, e1, e2, e3, e4, e5⟩ := blockIndices t
  funext y
  obtain ⟨i, j, rfl⟩ : ∃ (i : Fin 1024) (j : Fin 1280), y = ix2 i j := ⟨y 0, y 1, eq_ix2 y⟩
  show k1_pay1 (F := Ideal) (iblk1 V c 0 t) (iblk1 V c 1 t) (ix2 i j)
    = simPadded (V c main_v1) (V c main_v2) (((cfg1.win 2).blk t).view.emb (ix2 i j))
  refine entry_of_blocks (V c main_v1) (V c main_v2) (iblk1 V c 0 t) (iblk1 V c 1 t) t.val ?_ ?_ i j _ ?_ ?_
  · intro i d
    show V c main_v1 (((cfg1.win 0).blk t).view.emb (ix2 i d)) = V c main_v1 (ix2 i d)
    refine congrArg (V c main_v1) (funext fun a => Fin.ext ?_)
    match a with
    | ⟨0, _⟩ => show win1_0.index t (0 : Fin 2) * 1024 + 1 * i.val = i.val; rw [e0]; omega
    | ⟨1, _⟩ => show win1_0.index t (1 : Fin 2) * 256 + 1 * d.val = d.val; rw [e1]; omega
  · intro j d k hk0 hk1
    show V c main_v2 (((cfg1.win 1).blk t).view.emb (ix2 j d)) = V c main_v2 k
    refine congrArg (V c main_v2) (funext fun a => Fin.ext ?_)
    match a with
    | ⟨0, _⟩ => show win1_1.index t (0 : Fin 2) * 1280 + 1 * j.val = (k 0).val; rw [e2, hk0]; omega
    | ⟨1, _⟩ => show win1_1.index t (1 : Fin 2) * 256 + 1 * d.val = (k 1).val; rw [e3, hk1]; omega
  · show win1_2.index t (0 : Fin 2) * 1024 + 1 * i.val = i.val; rw [e4]; omega
  · show win1_2.index t (1 : Fin 2) * 1280 + 1 * j.val = t.val * 1280 + j.val; rw [e5]; omega

/-- An index of the array is in point t's block iff each coordinate is in the block's range on its axis. -/
theorem mem_block (t : Fin cfg1.N) (i : S1024x51200.Idx) :
    i ∈ ((cfg1.win 2).blk t).view.set ↔ ∀ a : Fin 2, win1_2.index t a * S1024x1280.size a ≤ (i a).val
      ∧ (i a).val < win1_2.index t a * S1024x1280.size a + S1024x1280.size a := by
  show i ∈ ((View.whole main_v3).slice (win1_2.rect t)).set ↔ _
  rw [View.set_slice_whole, Rect.mem_set_unit]
  exact Iff.rfl

/-- The forty blocks tile the array: column e lies in the block of point e / 1280. So after the region the output
    array holds the padded array of the two input arrays as the region finds them. -/
theorem sim_array (c : Dev nD) :
    (dat1 (F := Ideal) V c).arrAt 2 cfg1.N = simPadded (V c main_v1) (V c main_v2) :=
  (dat1 V c).arrAt_eq_of_cover 2 (simPadded (V c main_v1) (V c main_v2)) (fun t _ => flushed_eq V c t) fun i => by
    have hN : grid1.N = 40 := Gen.N_1
    have hi0 : (i 0).val < 1024 := (i 0).isLt
    have hi1 : (i 1).val < 51200 := (i 1).isLt
    have ht : (i 1).val / 1280 < cfg1.N := by show (i 1).val / 1280 < grid1.N; rw [hN]; omega
    refine ⟨⟨(i 1).val / 1280, ht⟩, flush1_2 _, ?_⟩
    rw [mem_block]
    obtain ⟨-, -, -, -, e4, e5⟩ := blockIndices ⟨(i 1).val / 1280, ht⟩
    have e5' : win1_2.index ⟨(i 1).val / 1280, ht⟩ (1 : Fin 2) = (i 1).val / 1280 := e5
    intro a
    match a with
    | ⟨0, _⟩ =>
      show win1_2.index ⟨(i 1).val / 1280, ht⟩ (0 : Fin 2) * 1024 ≤ (i 0).val
        ∧ (i 0).val < win1_2.index ⟨(i 1).val / 1280, ht⟩ (0 : Fin 2) * 1024 + 1024
      rw [e4]; omega
    | ⟨1, _⟩ =>
      show win1_2.index ⟨(i 1).val / 1280, ht⟩ (1 : Fin 2) * 1280 ≤ (i 1).val
        ∧ (i 1).val < win1_2.index ⟨(i 1).val / 1280, ht⟩ (1 : Fin 2) * 1280 + 1280
      rw [e5']; omega

end Cert.KernelIdeal.Sim

end
-- ==== Proof.KernelRun.lean ====
/-
  The idealised kernel program's run with its two result buffers read.

  The program is two kernel regions among three stretches of host operations. The contents of the device's
  buffers at each boundary are a fold through the program: the launch memory, then the first region's arrays at
  what its write-backs leave, then the host operations between the regions applied, then the second region's
  arrays, then the last host operations. Every weakly fair execution terminates, nothing faulting, with every
  unscoped buffer at the last boundary's contents; read at the two result buffers and at the six arguments, this
  is the statement below. The arguments come back as launched because no segment writes them.
-/
import proofs.«120378_j66142496358618_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and the arguments as launched. -/
theorem run : θ_run defs (onTc (τ := τ) (main (F := F))) ⟨m, fun _ => 0, ρ⟩ (fun r => ∀ c : Dev nD,
      r.2.mem ((c.tc : Thread nD τ).loc main_v0_1) = W5 m ρ c (Proc.devRef .tc main_v0_1)
      ∧ r.2.mem ((c.tc : Thread nD τ).loc main_v5) = W5 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0_1 (by decide)),
       h c _ (mem_uc main_v5 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Results

end
-- ==== Proof.KernelValue.lean ====
import proofs.«120378_j66142496358618_1_alg».proof.Proof.Boundaries
import proofs.«120378_j66142496358618_1_alg».proof.Proof.SimArray
import proofs.«120378_j66142496358618_1_alg».proof.Proof.KernelRun
import Idealize.ShloMosaic.Lib.KernelVsHost

set_option maxRecDepth 16384

noncomputable section

/-
  The idealised kernel program's two results as functions of its arguments.

  The mention result is the first region's mention array. For the similarity result: row 128·r + s of the reshaped
  projection array is position (r, s); row j < 50000 of the padded entity table is entity j; cutting the padding
  columns off and reshaping back reads the second region's array at (128·r + s, j). So the entry (r, s, j) is the
  inner product of position (r, s)'s normalised projection with entity j's normalised row.
-/
namespace Cert.KernelIdeal.Results

open Cert.KernelIdeal Cert.KernelIdeal.Gen Idealize.ShloMosaic Idealize.ShloMosaic.ValueIdx Idealize.ShloMosaic.TcCoe Idealize.SL.Sem

variable {α : Type}

/-- Position (r, s) as a row of the 1024-row matrices. -/
def flat (r : Fin 8) (s : Fin 128) : Fin 1024 := ⟨128 * r.val + s.val, by have := r.isLt; have := s.isLt; omega⟩
/-- Entity j as a row of the padded table. -/
def wide (j : Fin 50000) : Fin 51200 := ⟨j.val, by have := j.isLt; omega⟩

/-- An 8 × 128 × 256 array reshaped to 1024 rows, read at row 128·r + s. -/
theorem rows_of_reshape (X : S8x128x256.Idx → α) (r : Fin 8) (s : Fin 128) (d : Fin 256) :
    shapeCast S1024x256 X shapeCasts_S8x128x256_S1024x256 (ix2 (flat r s) d) = X (ix3 r s d) :=
  shapeCast_apply X _ _ _ (by
    rw [Shape.rowMajor_val_three, Shape.rowMajor_val_two]
    show (r.val * 128 + s.val) * 256 + d.val = (128 * r.val + s.val) * 256 + d.val
    omega)

/-- A 1024 × 50000 array reshaped to 8 × 128 × 50000, read at (r, s, j). -/
theorem reshape_of_rows (Y : S1024x50000.Idx → α) (r : Fin 8) (s : Fin 128) (j : Fin 50000) :
    shapeCast S8x128x50000 Y shapeCasts_S1024x50000_S8x128x50000 (ix3 r s j) = Y (ix2 (flat r s) j) :=
  shapeCast_apply Y _ _ _ (by
    rw [Shape.rowMajor_val_three, Shape.rowMajor_val_two]
    show (128 * r.val + s.val) * 50000 + j.val = (r.val * 128 + s.val) * 50000 + j.val
    omega)

/-- The first 50000 columns of a 1024 × 51200 array. -/
theorem cut_columns (Z : S1024x51200.Idx → α) (i : Fin 1024) (j : Fin 50000) :
    extractStridedSlice S1024x50000 ![0, 0] Z slices_S1024x51200_S1024x50000_0_0 (ix2 i j) = Z (ix2 i (wide j)) :=
  extractStridedSlice_apply _ Z _ _ _ fun a => by
    match a with
    | ⟨0, _⟩ => show i.val = 0 + i.val; omega
    | ⟨1, _⟩ => show j.val = 0 + j.val; omega

/-- A row of the padded entity table above the padding is the entity's row. -/
theorem padded_row (e : S50000x256.Idx → α) (v : S_.Idx → α) (j : Fin 50000) (d : Fin 256) :
    pad S51200x256 ![0, 0] ![1200, 0] ![0, 0] e v pads_S50000x256_S51200x256_012000_000 h_S_ (ix2 (wide j) d) = e (ix2 j d) :=
  pad_apply_of_inside _ _ _ e v _ _ _ (ix2 j d) fun a => by
    match a with
    | ⟨0, _⟩ => show j.val = 0 + j.val * (0 + 1); omega
    | ⟨1, _⟩ => show d.val = 0 + d.val * (0 + 1); omega

/-- The padded similarity array at (i, j). -/
theorem simPadded_ix (P : S1024x256.Idx → EReal) (E : S51200x256.Idx → EReal) (i : Fin 1024) (j : Fin 51200) :
    Sim.simPadded P E (ix2 i j) = ∑ d : Fin 256, P (ix2 i d) * Spec.unit (fun d' => E (ix2 j d')) d := rfl

variable (m : (ℓ : Loc nD τ sig) → Buf (Elt Ideal) ℓ) (ρ : Dev nD → PrngReg)

/-- The mention result is the mention head's function of the arguments. -/
theorem mention_value (c : Dev nD) : W5 m ρ c (Proc.devRef .tc main_v0_1)
    = Spec.mentionArr (m ((c : Thread nD τ).loc main_arg0)) (m ((c : Thread nD τ).loc main_arg3)) (m ((c : Thread nD τ).loc main_arg4)) :=
  (Glue.mention_result m ρ c).trans (Head.mention_array (V0 m ρ) c)

/-- The similarity result is the similarity function of the arguments. -/
theorem similarity_value (c : Dev nD) : W5 m ρ c (Proc.devRef .tc main_v5)
    = Spec.similarityArr (m ((c : Thread nD τ).loc main_arg0)) (m ((c : Thread nD τ).loc main_arg1)) (m ((c : Thread nD τ).loc main_arg2)) (m ((c : Thread nD τ).loc main_arg5)) := by
  rw [Glue.sim_result, Sim.sim_array (V3 m ρ) c, Glue.proj_operand, Glue.ent_operand, Head.proj_array (V0 m ρ) c]
  funext i
  obtain ⟨r, s, j, rfl⟩ : ∃ (r : Fin 8) (s : Fin 128) (j : Fin 50000), i = ix3 r s j := ⟨i 0, i 1, i 2, eq_ix3 i⟩
  rw [Spec.similarityArr_ix, reshape_of_rows, cut_columns]
  refine (simPadded_ix _ _ (flat r s) (wide j)).trans ?_
  unfold Spec.similarity
  refine Finset.sum_congr rfl fun d _ => ?_
  refine congrArg₂ (fun (a b : EReal) => a * b) ?_ ?_
  · refine (rows_of_reshape _ r s d).trans ?_
    exact Head.projArr_ix _ _ _ r s d
  · unfold Spec.entUnit
    refine congrArg (fun f => Spec.unit f d) (funext fun d' => ?_)
    exact padded_row _ _ j d'

/-- Every weakly fair execution of the idealised kernel program terminates, nothing faulting, with the mention result
    and the similarity result at their functions of the arguments, and the arguments as launched. -/
theorem run_value : θ_run defs (onTc (τ := τ) (main (F := Ideal))) ⟨m, fun _ => 0, ρ⟩ (fun r => ∀ c : Dev nD,
      r.2.mem ((c.tc : Thread nD τ).loc main_v0_1) = Spec.mentionArr (m ((c : Thread nD τ).loc main_arg0)) (m ((c : Thread nD τ).loc main_arg3)) (m ((c : Thread nD τ).loc main_arg4))
      ∧ r.2.mem ((c.tc : Thread nD τ).loc main_v5) = Spec.similarityArr (m ((c : Thread nD τ).loc main_arg0)) (m ((c : Thread nD τ).loc main_arg1)) (m ((c : Thread nD τ).loc main_arg2)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (mention_value m ρ c), (h c).2.1.trans (similarity_value m ρ c), (h c).2.2⟩)
    (run m ρ)

end Cert.KernelIdeal.Results

end
-- ==== Proof.RefMention.lean ====
/-
  The reference program's mention head is the specification's.

  The reference computes, for every batch row r, position s and class c: the logit (an inner product over the 768
  features plus a bias); the largest logit of the class over the 128 positions, as a maximum taken from an initial
  value and then compared once more with that same initial value; the logit minus that maximum; the sum over the
  positions of the exponentials of those differences; and the difference minus the logarithm of that sum.
  Each stage is read at literal coordinates and identified with the corresponding function of the specification.
-/
import proofs.«120378_j66142496358618_1_alg».proof.Proof.Gen.ReferenceIdeal.Read
import proofs.«120378_j66142496358618_1_alg».proof.Proof.Spec
import Idealize.ShloMosaic.Lib.ValueIdx
import Idealize.ShloMosaic.PureOps.Ideal.Laws
import Idealize.ShloMosaic.PureOps.Reduce

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The logits of batch row r, as the specification writes them. -/
abbrev logits (x0 : FVec Ideal S8x128x768 .f32) (x3 : FVec Ideal S3x768 .f32) (x4 : FVec Ideal S3 .f32) (r : Fin 8) :
    Fin 128 → Fin 3 → EReal :=
  Cert.Spec.lin (Cert.Spec.row x0 r) (Cert.Spec.mat x3) (Cert.Spec.vec x4)

/-- The logit stage at (r, s, c): the inner product over the features plus the bias. -/
theorem logit_eq (x0 : FVec Ideal S8x128x768 .f32) (x3 : FVec Ideal S3x768 .f32) (x4 : FVec Ideal S3 .f32)
    (r : Fin 8) (s : Fin 128) (c : Fin 3) :
    val_main_v3 (F := Ideal) x0 x3 x4 (ix3 r s c) = logits x0 x3 x4 r s c := by
  rw [val_main_v3_apply, val_main_v0_apply, val_main_v2_apply, val_main_v1_apply, Ideal.addf_def]
  have el : ∀ k : Fin 768, lidx_main_v0 (ix3 r s c) k = ix3 r s k := fun k =>
    funext fun a => Fin.ext (by match a with | ⟨0, _⟩ => rfl | ⟨1, _⟩ => rfl | ⟨2, _⟩ => rfl)
  have er : ∀ k : Fin 768, ridx_main_v0 (ix3 r s c) k = ix2 c k := fun k =>
    funext fun a => Fin.ext (by match a with | ⟨0, _⟩ => rfl | ⟨1, _⟩ => rfl)
  have eb : idx_main_v1 (idx_main_v2 (ix3 r s c)) = ix1 c :=
    funext fun a => Fin.ext (by match a with | ⟨0, _⟩ => rfl)
  rw [eb]
  simp only [el, er]
  rfl

/-- Dropping the positions' axis of an 8 by 128 by 3 array leaves an 8 by 3 array. -/
theorem reduces_pos : S8x128x3.Reduces [1] S8x3 := by decide

/-- The reduced index (r, c) with position k put back is (r, k, c). -/
theorem lift_pos (r : Fin 8) (c : Fin 3) (k : Fin (S8x128x3.size 1)) :
    reduces_pos.lift (ix2 r c) k = ix3 r (⟨k.val, k.isLt⟩ : Fin 128) c := by
  funext a; apply Fin.ext
  match a with
  | ⟨0, _⟩ => rfl
  | ⟨1, _⟩ => rfl
  | ⟨2, _⟩ => rfl

/-- The maximum over the positions, from the initial value, at (r, c): the largest logit of the class. -/
theorem rowmax_eq (x0 : FVec Ideal S8x128x768 .f32) (x3 : FVec Ideal S3x768 .f32) (x4 : FVec Ideal S3 .f32)
    (r : Fin 8) (c : Fin 3) :
    val_main_call0_v0 (F := Ideal) x0 x3 x4 (ix2 r c) = Cert.Spec.topLogit (logits x0 x3 x4 r) c := by
  unfold val_main_call0_v0
  rw [Host.reduce_eq_fold_single FloatOps.maximumf _ _ reducesTo_S8x128x3_S8x3_d1 reduces_pos h_S_]
  have hf : (val_main_v3 (F := Ideal) x0 x3 x4 ∘ reduces_pos.lift (ix2 r c))
      = fun s : Fin 128 => logits x0 x3 x4 r s c := funext fun k => by
    show val_main_v3 (F := Ideal) x0 x3 x4 (reduces_pos.lift (ix2 r c) k) = _
    rw [lift_pos]
    exact logit_eq x0 x3 x4 r _ c
  unfold Cert.Spec.topLogit
  exact congrArg (fun f => Finset.fold max (Ideal.ofBits .f32 0xFF800000#32) f (Finset.univ : Finset (Fin 128))) hf

/-- Comparing the maximum once more with the value it started from changes nothing. -/
theorem top_eq (x0 : FVec Ideal S8x128x768 .f32) (x3 : FVec Ideal S3x768 .f32) (x4 : FVec Ideal S3 .f32)
    (r : Fin 8) (c : Fin 3) :
    val_main_call0_v2 (F := Ideal) x0 x3 x4 (ix2 r c) = Cert.Spec.topLogit (logits x0 x3 x4 r) c := by
  rw [val_main_call0_v2_apply, val_main_call0_v1_apply, val_main_call0_cst_0_apply, rowmax_eq, Ideal.maximumf_def,
    Ideal.ofBits_def]
  exact max_eq_right ((Finset.le_fold_max _).2 (Or.inl le_rfl))

/-- The logit minus the largest of its class, at (r, s, c). -/
theorem shifted_eq (x0 : FVec Ideal S8x128x768 .f32) (x3 : FVec Ideal S3x768 .f32) (x4 : FVec Ideal S3 .f32)
    (r : Fin 8) (s : Fin 128) (c : Fin 3) :
    val_main_call0_v5 (F := Ideal) x0 x3 x4 (ix3 r s c) = Cert.Spec.shifted (logits x0 x3 x4 r) s c := by
  rw [val_main_call0_v5_apply, val_main_call0_v4_apply, val_main_call0_v3_apply, logit_eq, Ideal.subf_def]
  have e : idx_main_call0_v3 (idx_main_call0_v4 (ix3 r s c)) = ix2 r c :=
    funext fun a => Fin.ext (by match a with | ⟨0, _⟩ => rfl | ⟨1, _⟩ => rfl)
  rw [e, top_eq]
  rfl

/-- The sum over the positions of the exponentials of the shifted logits, at (r, c). -/
theorem sumexp_eq (x0 : FVec Ideal S8x128x768 .f32) (x3 : FVec Ideal S3x768 .f32) (x4 : FVec Ideal S3 .f32)
    (r : Fin 8) (c : Fin 3) :
    val_main_call0_v7 (F := Ideal) x0 x3 x4 (ix2 r c)
      = ∑ s' : Fin 128, Ideal.exp (Cert.Spec.shifted (logits x0 x3 x4 r) s' c) := by
  rw [val_main_call0_v7_apply, val_main_call0_cst_1_apply, Ideal.ofBits_def, Ideal.ofBits_zero_f32, zero_add]
  refine Finset.sum_congr rfl fun k _ => ?_
  have e : idx_main_call0_v7 (ix2 r c) k = ix3 r k c :=
    funext fun a => Fin.ext (by match a with | ⟨0, _⟩ => rfl | ⟨1, _⟩ => rfl | ⟨2, _⟩ => rfl)
  rw [e, val_main_call0_v6_apply, shifted_eq, Ideal.hostUnary_exp_def]

/-- The mention head's result at (r, s, c). -/
theorem mention_ix (x0 : FVec Ideal S8x128x768 .f32) (x3 : FVec Ideal S3x768 .f32) (x4 : FVec Ideal S3 .f32)
    (r : Fin 8) (s : Fin 128) (c : Fin 3) :
    val_main_v4 (F := Ideal) x0 x3 x4 (ix3 r s c) = Cert.Spec.mention x0 x3 x4 r s c := by
  rw [val_main_v4_apply, val_main_call0_v10_apply, val_main_call0_v9_apply, val_main_call0_v8_apply, shifted_eq,
    Ideal.subf_def, Ideal.hostUnary_log_def]
  have e : idx_main_call0_v8 (idx_main_call0_v10 (ix3 r s c)) = ix2 r c :=
    funext fun a => Fin.ext (by match a with | ⟨0, _⟩ => rfl | ⟨1, _⟩ => rfl)
  rw [e, sumexp_eq]
  rfl

/-- The reference's first result is the specification's mention array. -/
theorem mention_eq (x0 : FVec Ideal Cert.ReferenceIdeal.S8x128x768 .f32) (x3 : FVec Ideal Cert.ReferenceIdeal.S3x768 .f32)
    (x4 : FVec Ideal Cert.ReferenceIdeal.S3 .f32) :
    Cert.ReferenceIdeal.Read.val_main_v4 (F := Ideal) x0 x3 x4 = Cert.Spec.mentionArr x0 x3 x4 := by
  funext i
  obtain ⟨r, s, c, rfl⟩ : ∃ (r : Fin 8) (s : Fin 128) (c : Fin 3), i = ix3 r s c := ⟨i 0, i 1, i 2, eq_ix3 i⟩
  rw [Cert.Spec.mentionArr_ix]
  exact mention_ix x0 x3 x4 r s c

end Cert.RefSide

end
-- ==== Proof.RefSimilarity.lean ====
/-
  The reference program's similarity head is the specification's.

  The reference computes, for every batch row r and position s, the projection (tanh of a linear map with 256
  outputs), its Euclidean norm (the square root of the sum of the squares of its entries), the larger of that norm
  and a small constant, and the projection divided by it; for every entity j the same normalisation of its row; and
  for every (r, s, j) the inner product of the two normalised vectors. Each stage is read at literal coordinates
  and identified with the corresponding function of the specification.
-/
import proofs.«120378_j66142496358618_1_alg».proof.Proof.Gen.ReferenceIdeal.Read
import proofs.«120378_j66142496358618_1_alg».proof.Proof.Spec
import Idealize.ShloMosaic.Lib.ValueIdx
import Idealize.ShloMosaic.PureOps.Ideal.Laws

noncomputable section

namespace Cert.RefSide

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The projection of position s of batch row r, as the specification writes it. -/
abbrev projRow (x0 : FVec Ideal S8x128x768 .f32) (x1 : FVec Ideal S256x768 .f32) (x2 : FVec Ideal S256 .f32) (r : Fin 8)
    (s : Fin 128) : Fin 256 → EReal :=
  Cert.Spec.proj (Cert.Spec.row x0 r) (Cert.Spec.mat x1) (Cert.Spec.vec x2) s

/-- The projection stage at (r, s, d): tanh of the inner product over the features plus the bias. -/
theorem proj_eq (x0 : FVec Ideal S8x128x768 .f32) (x1 : FVec Ideal S256x768 .f32) (x2 : FVec Ideal S256 .f32)
    (r : Fin 8) (s : Fin 128) (d : Fin 256) :
    val_main_v9 (F := Ideal) x0 x1 x2 (ix3 r s d) = projRow x0 x1 x2 r s d := by
  rw [val_main_v9_apply, val_main_v8_apply, val_main_v5_apply, val_main_v7_apply, val_main_v6_apply, Ideal.addf_def,
    Ideal.hostUnary_tanh_def]
  have el : ∀ k : Fin 768, lidx_main_v5 (ix3 r s d) k = ix3 r s k := fun k =>
    funext fun a => Fin.ext (by match a with | ⟨0, _⟩ => rfl | ⟨1, _⟩ => rfl | ⟨2, _⟩ => rfl)
  have er : ∀ k : Fin 768, ridx_main_v5 (ix3 r s d) k = ix2 d k := fun k =>
    funext fun a => Fin.ext (by match a with | ⟨0, _⟩ => rfl | ⟨1, _⟩ => rfl)
  have eb : idx_main_v6 (idx_main_v7 (ix3 r s d)) = ix1 d :=
    funext fun a => Fin.ext (by match a with | ⟨0, _⟩ => rfl)
  rw [eb]
  simp only [el, er]
  rfl

/-- The larger of the projection's norm and the small constant, at (r, s). -/
theorem projNorm_eq (x0 : FVec Ideal S8x128x768 .f32) (x1 : FVec Ideal S256x768 .f32) (x2 : FVec Ideal S256 .f32)
    (r : Fin 8) (s : Fin 128) (z : Fin 1) :
    val_main_v12 (F := Ideal) x0 x1 x2 (ix3 r s z)
      = max (Ideal.sqrt (∑ d' : Fin 256, projRow x0 x1 x2 r s d' * projRow x0 x1 x2 r s d')) Cert.Spec.floorW := by
  rw [val_main_v12_apply, val_main_v10_apply, val_main_v11_apply, val_main_cst_apply, val_main_call1_v2_apply,
    val_main_call1_v1_apply, val_main_call1_cst_apply, Ideal.maximumf_def, Ideal.hostUnary_sqrt_def, Ideal.ofBits_def,
    Ideal.ofBits_def, Ideal.ofBits_zero_f32, zero_add]
  have e : ∀ k : Fin 256, idx_main_call1_v1 (idx_main_call1_v2 (ix3 r s z)) k = ix3 r s k := fun k =>
    funext fun a => Fin.ext (by match a with | ⟨0, _⟩ => rfl | ⟨1, _⟩ => rfl | ⟨2, _⟩ => rfl)
  have hs : (∑ k : Fin 256, val_main_call1_v0 (F := Ideal) x0 x1 x2 (idx_main_call1_v1 (idx_main_call1_v2 (ix3 r s z)) k))
      = ∑ d' : Fin 256, projRow x0 x1 x2 r s d' * projRow x0 x1 x2 r s d' :=
    Finset.sum_congr rfl fun k _ => by
      rw [e, val_main_call1_v0_apply, proj_eq, Ideal.mulf_def]
  rw [hs]

/-- The normalised projection at (r, s, d). -/
theorem projUnit_eq (x0 : FVec Ideal S8x128x768 .f32) (x1 : FVec Ideal S256x768 .f32) (x2 : FVec Ideal S256 .f32)
    (r : Fin 8) (s : Fin 128) (d : Fin 256) :
    val_main_v14 (F := Ideal) x0 x1 x2 (ix3 r s d) = Cert.Spec.projUnit x0 x1 x2 r s d := by
  rw [val_main_v14_apply, val_main_v13_apply, proj_eq, Ideal.hostDivf_def]
  have e : idx_main_v13 (ix3 r s d) = ix3 r s (0 : Fin 1) :=
    funext fun a => Fin.ext (by match a with | ⟨0, _⟩ => rfl | ⟨1, _⟩ => rfl | ⟨2, _⟩ => rfl)
  rw [e, projNorm_eq]
  rfl

/-- The larger of an entity row's norm and the small constant, at j. -/
theorem entNorm_eq (x5 : FVec Ideal S50000x256 .f32) (j : Fin 50000) (z : Fin 1) :
    val_main_v17 (F := Ideal) x5 (ix2 j z)
      = max (Ideal.sqrt (∑ d' : Fin 256, x5 (ix2 j d') * x5 (ix2 j d'))) Cert.Spec.floorW := by
  rw [val_main_v17_apply, val_main_v15_apply, val_main_v16_apply, val_main_cst_0_apply, val_main_call2_v2_apply,
    val_main_call2_v1_apply, val_main_call2_cst_apply, Ideal.maximumf_def, Ideal.hostUnary_sqrt_def, Ideal.ofBits_def,
    Ideal.ofBits_def, Ideal.ofBits_zero_f32, zero_add]
  have e : ∀ k : Fin 256, idx_main_call2_v1 (idx_main_call2_v2 (ix2 j z)) k = ix2 j k := fun k =>
    funext fun a => Fin.ext (by match a with | ⟨0, _⟩ => rfl | ⟨1, _⟩ => rfl)
  have hs : (∑ k : Fin 256, val_main_call2_v0 (F := Ideal) x5 (idx_main_call2_v1 (idx_main_call2_v2 (ix2 j z)) k))
      = ∑ d' : Fin 256, x5 (ix2 j d') * x5 (ix2 j d') :=
    Finset.sum_congr rfl fun k _ => by
      rw [e, val_main_call2_v0_apply, Ideal.mulf_def]
  rw [hs]

/-- The normalised entity row at (j, d). -/
theorem entUnit_eq (x5 : FVec Ideal S50000x256 .f32) (j : Fin 50000) (d : Fin 256) :
    val_main_v19 (F := Ideal) x5 (ix2 j d) = Cert.Spec.entUnit x5 j d := by
  rw [val_main_v19_apply, val_main_v18_apply, Ideal.hostDivf_def]
  have e : idx_main_v18 (ix2 j d) = ix2 j (0 : Fin 1) :=
    funext fun a => Fin.ext (by match a with | ⟨0, _⟩ => rfl | ⟨1, _⟩ => rfl)
  rw [e, entNorm_eq]
  rfl

/-- The similarity at (r, s, j): the inner product of the two normalised vectors. -/
theorem similarity_ix (x0 : FVec Ideal S8x128x768 .f32) (x1 : FVec Ideal S256x768 .f32) (x2 : FVec Ideal S256 .f32)
    (x5 : FVec Ideal S50000x256 .f32) (r : Fin 8) (s : Fin 128) (j : Fin 50000) :
    val_main_v20 (F := Ideal) x0 x1 x2 x5 (ix3 r s j) = Cert.Spec.similarity x0 x1 x2 x5 r s j := by
  rw [val_main_v20_apply]
  unfold Cert.Spec.similarity
  refine Finset.sum_congr rfl fun k _ => ?_
  have el : lidx_main_v20 (ix3 r s j) k = ix3 r s k :=
    funext fun a => Fin.ext (by match a with | ⟨0, _⟩ => rfl | ⟨1, _⟩ => rfl | ⟨2, _⟩ => rfl)
  have er : ridx_main_v20 (ix3 r s j) k = ix2 j k :=
    funext fun a => Fin.ext (by match a with | ⟨0, _⟩ => rfl | ⟨1, _⟩ => rfl)
  rw [el, er, projUnit_eq, entUnit_eq]

/-- The reference's second result is the specification's similarity array. -/
theorem similarity_eq (x0 : FVec Ideal Cert.ReferenceIdeal.S8x128x768 .f32) (x1 : FVec Ideal Cert.ReferenceIdeal.S256x768 .f32)
    (x2 : FVec Ideal Cert.ReferenceIdeal.S256 .f32) (x5 : FVec Ideal Cert.ReferenceIdeal.S50000x256 .f32) :
    Cert.ReferenceIdeal.Read.val_main_v20 (F := Ideal) x0 x1 x2 x5 = Cert.Spec.similarityArr x0 x1 x2 x5 := by
  funext i
  obtain ⟨r, s, j, rfl⟩ : ∃ (r : Fin 8) (s : Fin 128) (j : Fin 50000), i = ix3 r s j := ⟨i 0, i 1, i 2, eq_ix3 i⟩
  rw [Cert.Spec.similarityArr_ix]
  exact similarity_ix x0 x1 x2 x5 r s j

end Cert.RefSide

end
-- ==== Proof.lean ====
/-
  The entity linker's kernel program computes what its reference computes, on the extended reals.

  Both programs take hidden states (8 batch rows, 128 positions, 768 features), two linear layers and a table of
  50000 entity vectors of 256 entries. The mention result is the logarithm of the softmax ALONG THE POSITIONS of a
  three-class linear layer. The similarity result is the inner product, for every position and entity, of the
  position's projection — tanh of a linear layer, divided by the larger of its Euclidean norm and a small constant —
  with the entity's vector normalised the same way.

  The kernel program runs two kernels: one per batch row for both heads, and one per block of 1280 entity rows for
  the similarities, on a table padded to 51200 rows whose padding columns are cut off afterwards. On the extended
  reals a change of float format is the identity, a block product into a zero accumulator is the sum of the products,
  a maximum taken from a start value is no smaller than that value, and a sum from zero is the sum; so both programs
  compute, entry by entry, the two functions of Proof/Spec.lean, in the same grouping: no law that needs finite
  inputs is used. The idealised kernel is the kernel's own text read on the extended reals (no rewrite was applied).
-/
import proofs.«120378_j66142496358618_1_alg».proof.Defs
import proofs.«120378_j66142496358618_1_alg».proof.Proof.Gen.Kernel
import proofs.«120378_j66142496358618_1_alg».proof.Proof.Gen.Kernel.Skeleton
import proofs.«120378_j66142496358618_1_alg».proof.Proof.Gen.Kernel.Launch
import proofs.«120378_j66142496358618_1_alg».proof.Proof.Gen.Kernel.Points
import proofs.«120378_j66142496358618_1_alg».proof.Proof.Gen.Kernel.Frame
import proofs.«120378_j66142496358618_1_alg».proof.Proof.Gen.KernelIdeal
import proofs.«120378_j66142496358618_1_alg».proof.Proof.Gen.KernelIdeal.Skeleton
import proofs.«120378_j66142496358618_1_alg».proof.Proof.Gen.KernelIdeal.Launch
import proofs.«120378_j66142496358618_1_alg».proof.Proof.Gen.KernelIdeal.Points
import proofs.«120378_j66142496358618_1_alg».proof.Proof.Gen.KernelIdeal.Frame
import proofs.«120378_j66142496358618_1_alg».proof.Proof.Gen.ReferenceIdeal
import proofs.«120378_j66142496358618_1_alg».proof.Proof.Gen.Pre_finite_inputs
import proofs.«120378_j66142496358618_1_alg».proof.Proof.Gen.ReferenceIdeal.Run
import proofs.«120378_j66142496358618_1_alg».proof.Proof.Gen.ReferenceIdeal.Read
import proofs.«120378_j66142496358618_1_alg».proof.Proof.KernelValue
import proofs.«120378_j66142496358618_1_alg».proof.Proof.RefMention
import proofs.«120378_j66142496358618_1_alg».proof.Proof.RefSimilarity
import Idealize.ShloMosaic.Adequacy
import Idealize.ShloMosaic.Init

noncomputable section

namespace Cert.Proof

open Idealize.ShloMosaic Idealize.ShloMosaic.TcCoe Idealize.SL.Sem

/-- The kernel program as printed runs to the end, nothing faulting, its arguments unchanged. -/
theorem frame_kernel : Cert.frame_Kernel := fun m ρ _ => Cert.Kernel.Gen.frame m ρ

/-- So does its reading on the extended reals. -/
theorem frame_ideal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the mention array and the similarity array of
    Proof/Spec.lean at those arguments. -/
theorem algebraic : Cert.algebraic_KernelIdeal_ReferenceIdeal := by
  intro m ρ m' ρ' _ hagree
  refine ⟨_, _, Cert.KernelIdeal.Results.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v4_eq (F := Ideal) _ _ _).trans ((Cert.RefSide.mention_eq _ _ _).trans ?_)
    rw [(hagree c).1, (hagree c).2.2.2.1, (hagree c).2.2.2.2.1]
  · refine (Cert.ReferenceIdeal.Read.val_main_v20_eq (F := Ideal) _ _ _ _).trans ((Cert.RefSide.similarity_eq _ _ _ _).trans ?_)
    rw [(hagree c).1, (hagree c).2.1, (hagree c).2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
